-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_3)) (v1 : (c : Dev Cert.KernelIdeal.nD) → Buf (Elt Ideal) ((c.tc : Thread Cert.KernelIdeal.nD Cert.KernelIdeal.τ).loc Cert.KernelIdeal.main_v0_4)) (v2 : (c : Dev Cert.KernelIdeal.nD) → Buf (Elt Ideal) ((c.tc : Thread Cert.KernelIdeal.nD Cert.KernelIdeal.τ).loc Cert.KernelIdeal.main_v0_5)) (v3 : (c : Dev Cert.KernelIdeal.nD) → Buf (Elt Ideal) ((c.tc : Thread Cert.KernelIdeal.nD Cert.KernelIdeal.τ).loc Cert.KernelIdeal.main_v0_6)) (v4 : (c : Dev Cert.KernelIdeal.nD) → Buf (Elt Ideal) ((c.tc : Thread Cert.KernelIdeal.nD Cert.KernelIdeal.τ).loc Cert.KernelIdeal.main_v0_0)) (v5 : (c : Dev Cert.KernelIdeal.nD) → Buf (Elt Ideal) ((c.tc : Thread Cert.KernelIdeal.nD Cert.KernelIdeal.τ).loc Cert.KernelIdeal.main_v0_1)) (v6 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_3) = v0 c
          ∧ r.2.mem ((c.tc : Thread Cert.KernelIdeal.nD Cert.KernelIdeal.τ).loc Cert.KernelIdeal.main_v0_4) = v1 c
          ∧ r.2.mem ((c.tc : Thread Cert.KernelIdeal.nD Cert.KernelIdeal.τ).loc Cert.KernelIdeal.main_v0_5) = v2 c
          ∧ r.2.mem ((c.tc : Thread Cert.KernelIdeal.nD Cert.KernelIdeal.τ).loc Cert.KernelIdeal.main_v0_6) = v3 c
          ∧ r.2.mem ((c.tc : Thread Cert.KernelIdeal.nD Cert.KernelIdeal.τ).loc Cert.KernelIdeal.main_v0_0) = v4 c
          ∧ r.2.mem ((c.tc : Thread Cert.KernelIdeal.nD Cert.KernelIdeal.τ).loc Cert.KernelIdeal.main_v0_1) = v5 c
          ∧ r.2.mem ((c.tc : Thread Cert.KernelIdeal.nD Cert.KernelIdeal.τ).loc Cert.KernelIdeal.main_v0_2) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v13) = v4 c
          ∧ r.2.mem ((c.tc : Thread Cert.ReferenceIdeal.nD Cert.ReferenceIdeal.τ).loc Cert.ReferenceIdeal.main_v21) = v5 c
          ∧ r.2.mem ((c.tc : Thread Cert.ReferenceIdeal.nD Cert.ReferenceIdeal.τ).loc Cert.ReferenceIdeal.main_v27) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x24 : Shape := ⟨2, ![262144, 24]⟩
abbrev S24x24 : Shape := ⟨2, ![24, 24]⟩
abbrev S24x50 : Shape := ⟨2, ![24, 50]⟩
abbrev S24x10 : Shape := ⟨2, ![24, 10]⟩
abbrev S10x10 : Shape := ⟨2, ![10, 10]⟩
abbrev S_ : Shape := ⟨0, ![]⟩

class Facts : Prop where
  bcast_S_S262144x24 : S_.BroadcastsInDim S262144x24 (![] : Fin 0 → Fin S262144x24.rank)
  reducesTo_S262144x24_S_d0_1 : S262144x24.ReducesTo [0, 1] S_
  h_S_ : 0 < S_.numel
  bcast_S_S24x24 : S_.BroadcastsInDim S24x24 (![] : Fin 0 → Fin S24x24.rank)
  reducesTo_S24x24_S_d0_1 : S24x24.ReducesTo [0, 1] S_
  bcast_S_S24x50 : S_.BroadcastsInDim S24x50 (![] : Fin 0 → Fin S24x50.rank)
  reducesTo_S24x50_S_d0_1 : S24x50.ReducesTo [0, 1] S_
  bcast_S_S24x10 : S_.BroadcastsInDim S24x10 (![] : Fin 0 → Fin S24x10.rank)
  reducesTo_S24x10_S_d0_1 : S24x10.ReducesTo [0, 1] S_
  bcast_S_S10x10 : S_.BroadcastsInDim S10x10 (![] : Fin 0 → Fin S10x10.rank)
  reducesTo_S10x10_S_d0_1 : S10x10.ReducesTo [0, 1] S_

variable [Facts]

def fn_part2 {F : FTy → Type} [FloatOps F] (main_arg7 : FVec F S24x10 .f32) (main_arg8 : FVec F S10x10 .f32) (main_v33 : IVec S_ 1) : IVec S_ 1 :=
  let main_v34 : FVec F S24x10 .f32 := Host.absf main_arg7
  let main_cst_12 : FVec F S_ .f32 := constant S_ .f32 0x7F800000#32
  let main_v35 : FVec F S24x10 .f32 := broadcastInDim S24x10 ![] bcast_S_S24x10 main_cst_12
  let main_v36 : IVec S24x10 1 := cmpf .olt main_v34 main_v35
  let main_c_13 : IVec S_ 1 := constantI S_ 1 1#1
  let main_v37 : IVec S_ 1 := (fun x v => Host.reduce IntOp.andi x v reducesTo_S24x10_S_d0_1 h_S_) main_v36 main_c_13
  let main_v38 : IVec S_ 1 := andi main_v33 main_v37
  let main_v39 : FVec F S10x10 .f32 := Host.absf main_arg8
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  main_v43

def fn_part1 {F : FTy → Type} [FloatOps F] (main_arg4 : FVec F S24x50 .f32) (main_arg5 : FVec F S24x24 .f32) (main_arg6 : FVec F S24x10 .f32) (main_arg7 : FVec F S24x10 .f32) (main_arg8 : FVec F S10x10 .f32) (main_v13 : IVec S_ 1) (main_v16 : IVec S24x50 1) : IVec S_ 1 :=
  let main_c_5 : IVec S_ 1 := constantI S_ 1 1#1
  let main_v17 : IVec S_ 1 := (fun x v => Host.reduce IntOp.andi x v reducesTo_S24x50_S_d0_1 h_S_) main_v16 main_c_5
  let main_v18 : IVec S_ 1 := andi main_v13 main_v17
  let main_v19 : FVec F S24x50 .f32 := Host.absf main_arg4
  let main_cst_6 : FVec F S_ .f32 := constant S_ .f32 0x7F800000#32
  let main_v20 : FVec F S24x50 .f32 := broadcastInDim S24x50 ![] bcast_S_S24x50 main_cst_6
  let main_v21 : IVec S24x50 1 := cmpf .olt main_v19 main_v20
  let main_c_7 : IVec S_ 1 := constantI S_ 1 1#1
  let main_v22 : IVec S_ 1 := (fun x v => Host.reduce IntOp.andi x v reducesTo_S24x50_S_d0_1 h_S_) main_v21 main_c_7
  let main_v23 : IVec S_ 1 := andi main_v18 main_v22
  let main_v24 : FVec F S24x24 .f32 := Host.absf main_arg5
  let main_cst_8 : FVec F S_ .f32 := constant S_ .f32 0x7F800000#32
  let main_v25 : FVec F S24x24 .f32 := broadcastInDim S24x24 ![] bcast_S_S24x24 main_cst_8
  let main_v26 : IVec S24x24 1 := cmpf .olt main_v24 main_v25
  let main_c_9 : IVec S_ 1 := constantI S_ 1 1#1
  let main_v27 : IVec S_ 1 := (fun x v => Host.reduce IntOp.andi x v reducesTo_S24x24_S_d0_1 h_S_) main_v26 main_c_9
  let main_v28 : IVec S_ 1 := andi main_v23 main_v27
  let main_v29 : FVec F S24x10 .f32 := Host.absf main_arg6
  let main_cst_10 : FVec F S_ .f32 := constant S_ .f32 0x7F800000#32
  let main_v30 : FVec F S24x10 .f32 := broadcastInDim S24x10 ![] bcast_S_S24x10 main_cst_10
  let main_v31 : IVec S24x10 1 := cmpf .olt main_v29 main_v30
  let main_c_11 : IVec S_ 1 := constantI S_ 1 1#1
  let main_v32 : IVec S_ 1 := (fun x v => Host.reduce IntOp.andi x v reducesTo_S24x10_S_d0_1 h_S_) main_v31 main_c_11
  let main_v33 : IVec S_ 1 := andi main_v28 main_v32
  fn_part2 (F := F) main_arg7 main_arg8 main_v33

def fn {F : FTy → Type} [FloatOps F] (main_arg0 : FVec F S262144x24 .f32) (main_arg1 : FVec F S262144x24 .f32) (main_arg2 : FVec F S24x24 .f32) (main_arg3 : FVec F S24x50 .f32) (main_arg4 : FVec F S24x50 .f32) (main_arg5 : FVec F S24x24 .f32) (main_arg6 : FVec F S24x10 .f32) (main_arg7 : FVec F S24x10 .f32) (main_arg8 : FVec F S10x10 .f32) : IVec S_ 1 :=
  let main_v0 : FVec F S262144x24 .f32 := Host.absf main_arg0
  let main_cst : FVec F S_ .f32 := constant S_ .f32 0x7F800000#32
  let main_v1 : FVec F S262144x24 .f32 := broadcastInDim S262144x24 ![] bcast_S_S262144x24 main_cst
  let main_v2 : IVec S262144x24 1 := cmpf .olt main_v0 main_v1
  let main_c : IVec S_ 1 := constantI S_ 1 1#1
  let main_v3 : IVec S_ 1 := (fun x v => Host.reduce IntOp.andi x v reducesTo_S262144x24_S_d0_1 h_S_) main_v2 main_c
  let main_v4 : FVec F S262144x24 .f32 := Host.absf main_arg1
  let main_cst_0 : FVec F S_ .f32 := constant S_ .f32 0x7F800000#32
  let main_v5 : FVec F S262144x24 .f32 := broadcastInDim S262144x24 ![] bcast_S_S262144x24 main_cst_0
  let main_v6 : IVec S262144x24 1 := cmpf .olt main_v4 main_v5
  let main_c_1 : IVec S_ 1 := constantI S_ 1 1#1
  let main_v7 : IVec S_ 1 := (fun x v => Host.reduce IntOp.andi x v reducesTo_S262144x24_S_d0_1 h_S_) main_v6 main_c_1
  let main_v8 : IVec S_ 1 := andi main_v3 main_v7
  let main_v9 : FVec F S24x24 .f32 := Host.absf main_arg2
  let main_cst_2 : FVec F S_ .f32 := constant S_ .f32 0x7F800000#32
  let main_v10 : FVec F S24x24 .f32 := broadcastInDim S24x24 ![] bcast_S_S24x24 main_cst_2
  let main_v11 : IVec S24x24 1 := cmpf .olt main_v9 main_v10
  let main_c_3 : IVec S_ 1 := constantI S_ 1 1#1
  let main_v12 : IVec S_ 1 := (fun x v => Host.reduce IntOp.andi x v reducesTo_S24x24_S_d0_1 h_S_) main_v11 main_c_3
  let main_v13 : IVec S_ 1 := andi main_v8 main_v12
  let main_v14 : FVec F S24x50 .f32 := Host.absf main_arg3
  let main_cst_4 : FVec F S_ .f32 := constant S_ .f32 0x7F800000#32
  let main_v15 : FVec F S24x50 .f32 := broadcastInDim S24x50 ![] bcast_S_S24x50 main_cst_4
  let main_v16 : IVec S24x50 1 := cmpf .olt main_v14 main_v15
  fn_part1 (F := F) main_arg4 main_arg5 main_arg6 main_arg7 main_arg8 main_v13 main_v16
-- ==== Kernel.lean ====
abbrev S262144x24 : Shape := ⟨2, ![262144, 24]⟩
abbrev S24x24 : Shape := ⟨2, ![24, 24]⟩
abbrev S24x50 : Shape := ⟨2, ![24, 50]⟩
abbrev S24x10 : Shape := ⟨2, ![24, 10]⟩
abbrev S10x10 : Shape := ⟨2, ![10, 10]⟩
abbrev S262144x50 : Shape := ⟨2, ![262144, 50]⟩
abbrev S262144x10 : Shape := ⟨2, ![262144, 10]⟩
abbrev S8192x24 : Shape := ⟨2, ![8192, 24]⟩
abbrev S8192x50 : Shape := ⟨2, ![8192, 50]⟩
abbrev S8192x10 : Shape := ⟨2, ![8192, 10]⟩

abbrev nBuf : Space → Nat
  | .hbm => 16
  | .vmem => 25
  | .smem => 0
  | _ => 0

abbrev bufTy : (tb : Table) → Fin (tcTables nBuf tb) → BufTy
  | .hbm, ⟨0, _⟩ => ⟨S262144x24, .f32⟩
  | .hbm, ⟨1, _⟩ => ⟨S262144x24, .f32⟩
  | .hbm, ⟨2, _⟩ => ⟨S24x24, .f32⟩
  | .hbm, ⟨3, _⟩ => ⟨S24x50, .f32⟩
  | .hbm, ⟨4, _⟩ => ⟨S24x50, .f32⟩
  | .hbm, ⟨5, _⟩ => ⟨S24x24, .f32⟩
  | .hbm, ⟨6, _⟩ => ⟨S24x10, .f32⟩
  | .hbm, ⟨7, _⟩ => ⟨S24x10, .f32⟩
  | .hbm, ⟨8, _⟩ => ⟨S10x10, .f32⟩
  | .hbm, ⟨9, _⟩ => ⟨S262144x50, .f32⟩
  | .hbm, ⟨10, _⟩ => ⟨S262144x10, .f32⟩
  | .hbm, ⟨11, _⟩ => ⟨S262144x10, .f32⟩
  | .hbm, ⟨12, _⟩ => ⟨S24x50, .f32⟩
  | .hbm, ⟨13, _⟩ => ⟨S24x50, .f32⟩
  | .hbm, ⟨14, _⟩ => ⟨S24x10, .f32⟩
  | .hbm, ⟨15, _⟩ => ⟨S24x10, .f32⟩
  | .local _ .vmem, ⟨0, _⟩ => ⟨S8192x24, .f32⟩
  | .local _ .vmem, ⟨1, _⟩ => ⟨S8192x24, .f32⟩
  | .local _ .vmem, ⟨2, _⟩ => ⟨S8192x24, .f32⟩
  | .local _ .vmem, ⟨3, _⟩ => ⟨S8192x24, .f32⟩
  | .local _ .vmem, ⟨4, _⟩ => ⟨S24x24, .f32⟩
  | .local _ .vmem, ⟨5, _⟩ => ⟨S24x50, .f32⟩
  | .local _ .vmem, ⟨6, _⟩ => ⟨S24x50, .f32⟩
  | .local _ .vmem, ⟨7, _⟩ => ⟨S24x24, .f32⟩
  | .local _ .vmem, ⟨8, _⟩ => ⟨S24x10, .f32⟩
  | .local _ .vmem, ⟨9, _⟩ => ⟨S24x10, .f32⟩
  | .local _ .vmem, ⟨10, _⟩ => ⟨S10x10, .f32⟩
  | .local _ .vmem, ⟨11, _⟩ => ⟨S8192x50, .f32⟩
  | .local _ .vmem, ⟨12, _⟩ => ⟨S8192x50, .f32⟩
  | .local _ .vmem, ⟨13, _⟩ => ⟨S8192x10, .f32⟩
  | .local _ .vmem, ⟨14, _⟩ => ⟨S8192x10, .f32⟩
  | .local _ .vmem, ⟨15, _⟩ => ⟨S8192x10, .f32⟩
  | .local _ .vmem, ⟨16, _⟩ => ⟨S8192x10, .f32⟩
  | .local _ .vmem, ⟨17, _⟩ => ⟨S24x50, .f32⟩
  | .local _ .vmem, ⟨18, _⟩ => ⟨S24x50, .f32⟩
  | .local _ .vmem, ⟨19, _⟩ => ⟨S24x10, .f32⟩
  | .local _ .vmem, ⟨20, _⟩ => ⟨S24x10, .f32⟩
  | .local _ .vmem, ⟨21, _⟩ => ⟨S24x50, .f32⟩
  | .local _ .vmem, ⟨22, _⟩ => ⟨S24x50, .f32⟩
  | .local _ .vmem, ⟨23, _⟩ => ⟨S24x10, .f32⟩
  | .local _ .vmem, ⟨24, _⟩ => ⟨S24x10, .f32⟩
  | _, _ => ⟨S262144x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v81 : BitVec 1 := Scalar.cmpi .eq arg0 c31_i32
  let v82 : BitVec 32 := Scalar.extui v81
  let c0_i32_55 : BitVec 32 := 0#32
  let v83 : BitVec 1 := Scalar.cmpi .ne v82 c0_i32_55
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x50 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8192x10 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8192x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S24x50 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S24x50 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S24x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S24x10 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  inb_S24x50_S24x50_0_0 : ∀ a, (![0, 0] : Fin 2 → Nat) a + S24x50.size a ≤ S24x50.size a
  h_S24x50 : 0 < S24x50.numel
  shapeCasts_S24x50_S24x50 : S24x50.ShapeCasts S24x50
  inb_S24x10_S24x10_0_0 : ∀ a, (![0, 0] : Fin 2 → Nat) a + S24x10.size a ≤ S24x10.size a
  h_S24x10 : 0 < S24x10.numel
  shapeCasts_S24x10_S24x10 : S24x10.ShapeCasts S24x10
  inb_S8192x24_S8192x24_0_0 : ∀ a, (![0, 0] : Fin 2 → Nat) a + S8192x24.size a ≤ S8192x24.size a
  h_S8192x24 : 0 < S8192x24.numel
  bitsLt_bf16_f32 : FTy.bits .bf16 < FTy.bits .f32
  inb_S24x24_S24x24_0_0 : ∀ a, (![0, 0] : Fin 2 → Nat) a + S24x24.size a ≤ S24x24.size a
  h_S24x24 : 0 < S24x24.numel
  inb_S10x10_S10x10_0_0 : ∀ a, (![0, 0] : Fin 2 → Nat) a + S10x10.size a ≤ S10x10.size a
  h_S10x10 : 0 < S10x10.numel
  natLt_1_32 : 1 < 32
  inb_S8192x50_S8192x50_0_0 : ∀ a, (![0, 0] : Fin 2 → Nat) a + S8192x50.size a ≤ S8192x50.size a
  h_S8192x50 : 0 < S8192x50.numel
  inb_S8192x10_S8192x10_0_0 : ∀ a, (![0, 0] : Fin 2 → Nat) a + S8192x10.size a ≤ S8192x10.size a
  h_S8192x10 : 0 < S8192x10.numel
  dot_S8192x24_S24x24_S8192x24_1_0_0_1_n_n_wf : DotDims.WF S8192x24 S24x24 S8192x24 [1] [0] [0] [1] [] []
  dot_S8192x24_S24x50_S8192x50_1_0_0_1_n_n_wf : DotDims.WF S8192x24 S24x50 S8192x50 [1] [0] [0] [1] [] []
  dot_S8192x24_S8192x50_S24x50_0_0_1_1_n_n_wf : DotDims.WF S8192x24 S8192x50 S24x50 [0] [0] [1] [1] [] []
  dot_S8192x24_S24x10_S8192x10_1_0_0_1_n_n_wf : DotDims.WF S8192x24 S24x10 S8192x10 [1] [0] [0] [1] [] []
  dot_S8192x24_S8192x10_S24x10_0_0_1_1_n_n_wf : DotDims.WF S8192x24 S8192x10 S24x10 [0] [0] [1] [1] [] []
  dot_S8192x10_S10x10_S8192x10_1_0_0_1_n_n_wf : DotDims.WF S8192x10 S10x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x24.size a ≤ S262144x24.size a
  hwx0_0 : ∀ i : grid0.Coords, EltTy.bits .f32 = 32 ∨ (Rect.block (s := S262144x24) S8192x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x24.size a ≤ S262144x24.size a
  hwx0_1 : ∀ i : grid0.Coords, EltTy.bits .f32 = 32 ∨ (Rect.block (s := S262144x24) S8192x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x24.size a ≤ S24x24.size a
  hwx0_2 : ∀ i : grid0.Coords, EltTy.bits .f32 = 32 ∨ (Rect.block (s := S24x24) S24x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x50.size a ≤ S24x50.size a
  hwx0_3 : ∀ i : grid0.Coords, EltTy.bits .f32 = 32 ∨ (Rect.block (s := S24x50) S24x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x50.size a ≤ S24x50.size a
  hwx0_4 : ∀ i : grid0.Coords, EltTy.bits .f32 = 32 ∨ (Rect.block (s := S24x50) S24x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x24.size a ≤ S24x24.size a
  hwx0_5 : ∀ i : grid0.Coords, EltTy.bits .f32 = 32 ∨ (Rect.block (s := S24x24) S24x24.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x10.size a ≤ S24x10.size a
  hwx0_6 : ∀ i : grid0.Coords, EltTy.bits .f32 = 32 ∨ (Rect.block (s := S24x10) S24x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S24x10.size a ≤ S24x10.size a
  hwx0_7 : ∀ i : grid0.Coords, EltTy.bits .f32 = 32 ∨ (Rect.block (s := S24x10) S24x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10x10.size a ≤ S10x10.size a
  hwx0_8 : ∀ i : grid0.Coords, EltTy.bits .f32 = 32 ∨ (Rect.block (s := S10x10) S10x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x50.size a ≤ S262144x50.size a
  hwx0_9 : ∀ i : grid0.Coords, EltTy.bits .f32 = 32 ∨ (Rect.block (s := S262144x50) S8192x50.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x10.size a ≤ S262144x10.size a
  hwx0_10 : ∀ i : grid0.Coords, EltTy.bits .f32 = 32 ∨ (Rect.block (s := S262144x10) S8192x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x10.size a ≤ S262144x10.size a
  hwx0_11 : ∀ i : grid0.Coords, EltTy.bits .f32 = 32 ∨ (Rect.block (s := S262144x10) S8192x10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S24x50.size a ≤ S24x50.size a
  hwx0_12 : ∀ i : grid0.Coords, EltTy.bits .f32 = 32 ∨ (Rect.block (s := S24x50) S24x50.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S24x50.size a ≤ S24x50.size a
  hwx0_13 : ∀ i : grid0.Coords, EltTy.bits .f32 = 32 ∨ (Rect.block (s := S24x50) S24x50.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S24x10.size a ≤ S24x10.size a
  hwx0_14 : ∀ i : grid0.Coords, EltTy.bits .f32 = 32 ∨ (Rect.block (s := S24x10) S24x10.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S24x10.size a ≤ S24x10.size a
  hwx0_15 : ∀ i : grid0.Coords, EltTy.bits .f32 = 32 ∨ (Rect.block (s := S24x10) S24x10.size (cc0_transform_15 i) (hinb0_15 i)).WholeWords (EltTy.packing .f32)

variable [Facts₀]

def dot_S8192x24_S24x24_S8192x24_1_0_0_1_n_n : DotDims S8192x24 S24x24 S8192x24 where
  lhsContracting := [1]
  rhsContracting := [0]
  lhsNonContracting := [0]
  rhsNonContracting := [1]
  lhsBatch := []
  rhsBatch := []
  wf := dot_S8192x24_S24x24_S8192x24_1_0_0_1_n_n_wf
def dot_S8192x24_S24x50_S8192x50_1_0_0_1_n_n : DotDims S8192x24 S24x50 S8192x50 where
  lhsContracting := [1]
  rhsContracting := [0]
  lhsNonContracting := [0]
  rhsNonContracting := [1]
  lhsBatch := []
  rhsBatch := []
  wf := dot_S8192x24_S24x50_S8192x50_1_0_0_1_n_n_wf
def dot_S8192x24_S8192x50_S24x50_0_0_1_1_n_n : DotDims S8192x24 S8192x50 S24x50 where
  lhsContracting := [0]
  rhsContracting := [0]
  lhsNonContracting := [1]
  rhsNonContracting := [1]
  lhsBatch := []
  rhsBatch := []
  wf := dot_S8192x24_S8192x50_S24x50_0_0_1_1_n_n_wf
def dot_S8192x24_S24x10_S8192x10_1_0_0_1_n_n : DotDims S8192x24 S24x10 S8192x10 where
  lhsContracting := [1]
  rhsContracting := [0]
  lhsNonContracting := [0]
  rhsNonContracting := [1]
  lhsBatch := []
  rhsBatch := []
  wf := dot_S8192x24_S24x10_S8192x10_1_0_0_1_n_n_wf
def dot_S8192x24_S8192x10_S24x10_0_0_1_1_n_n : DotDims S8192x24 S8192x10 S24x10 where
  lhsContracting := [0]
  rhsContracting := [0]
  lhsNonContracting := [1]
  rhsNonContracting := [1]
  lhsBatch := []
  rhsBatch := []
  wf := dot_S8192x24_S8192x10_S24x10_0_0_1_1_n_n_wf
def dot_S8192x10_S10x10_S8192x10_1_0_0_1_n_n : DotDims S8192x10 S10x10 S8192x10 where
  lhsContracting := [1]
  rhsContracting := [0]
  lhsNonContracting := [0]
  rhsNonContracting := [1]
  lhsBatch := []
  rhsBatch := []
  wf := dot_S8192x10_S10x10_S8192x10_1_0_0_1_n_n_wf

abbrev win0_0 : Pipeline.Window sig grid0 :=
  Pipeline.Window.ofSpec (Memref.whole main_arg0) S8192x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S24x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S24x24.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S24x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S24x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S10x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S8192x50.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S8192x10.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S8192x10.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_3) S24x50.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_4) S24x50.size cc0_transform_13 reads0_13 true true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0_5) S24x10.size cc0_transform_14 reads0_14 true true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_6) S24x10.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | 13 => fun i => !(k0_cond2 i == 1#1) | 14 => fun i => !(k0_cond2 i == 1#1) | 15 => fun i => !(k0_cond2 i == 1#1) | ⟨_ + 16, h⟩ => absurd h (Nat.not_lt.2 (Nat.le_add_left _ _))

class Facts : Prop extends Facts₀ where

variable [Facts]
-- ==== ReferenceIdeal.lean ====
abbrev S262144x24 : Shape := ⟨2, ![262144, 24]⟩
abbrev S24x24 : Shape := ⟨2, ![24, 24]⟩
abbrev S24x50 : Shape := ⟨2, ![24, 50]⟩
abbrev S24x10 : Shape := ⟨2, ![24, 10]⟩
abbrev S10x10 : Shape := ⟨2, ![10, 10]⟩
abbrev S_ : Shape := ⟨0, ![]⟩
abbrev S262144x50 : Shape := ⟨2, ![262144, 50]⟩
abbrev S262144x10 : Shape := ⟨2, ![262144, 10]⟩

abbrev nBuf : Space → Nat
  | .hbm => 42
  | .vmem => 0
  | .smem => 0
  | _ => 0

abbrev bufTy : (tb : Table) → Fin (tcTables nBuf tb) → BufTy
  | .hbm, ⟨0, _⟩ => ⟨S262144x24, .f32⟩
  | .hbm, ⟨1, _⟩ => ⟨S262144x24, .f32⟩
  | .hbm, ⟨2, _⟩ => ⟨S24x24, .f32⟩
  | .hbm, ⟨3, _⟩ => ⟨S24x50, .f32⟩
  | .hbm, ⟨4, _⟩ => ⟨S24x50, .f32⟩
  | .hbm, ⟨5, _⟩ => ⟨S24x24, .f32⟩
  | .hbm, ⟨6, _⟩ => ⟨S24x10, .f32⟩
  | .hbm, ⟨7, _⟩ => ⟨S24x10, .f32⟩
  | .hbm, ⟨8, _⟩ => ⟨S10x10, .f32⟩
  | .hbm, ⟨9, _⟩ => ⟨S262144x24, .f32⟩
  | .hbm, ⟨10, _⟩ => ⟨S_, .f32⟩
  | .hbm, ⟨11, _⟩ => ⟨S262144x24, .f32⟩
  | .hbm, ⟨12, _⟩ => ⟨S262144x24, .i1⟩
  | .hbm, ⟨13, _⟩ => ⟨S262144x24, .f32⟩
  | .hbm, ⟨14, _⟩ => ⟨S262144x24, .f32⟩
  | .hbm, ⟨15, _⟩ => ⟨S_, .f32⟩
  | .hbm, ⟨16, _⟩ => ⟨S262144x24, .f32⟩
  | .hbm, ⟨17, _⟩ => ⟨S262144x24, .i1⟩
  | .hbm, ⟨18, _⟩ => ⟨S262144x24, .f32⟩
  | .hbm, ⟨19, _⟩ => ⟨S262144x50, .f32⟩
  | .hbm, ⟨20, _⟩ => ⟨S262144x50, .f32⟩
  | .hbm, ⟨21, _⟩ => ⟨S262144x50, .f32⟩
  | .hbm, ⟨22, _⟩ => ⟨S_, .f32⟩
  | .hbm, ⟨23, _⟩ => ⟨S262144x50, .f32⟩
  | .hbm, ⟨24, _⟩ => ⟨S262144x50, .i1⟩
  | .hbm, ⟨25, _⟩ => ⟨S262144x50, .f32⟩
  | .hbm, ⟨26, _⟩ => ⟨S24x50, .f32⟩
  | .hbm, ⟨27, _⟩ => ⟨S24x50, .f32⟩
  | .hbm, ⟨28, _⟩ => ⟨S262144x10, .f32⟩
  | .hbm, ⟨29, _⟩ => ⟨S262144x10, .f32⟩
  | .hbm, ⟨30, _⟩ => ⟨S262144x10, .f32⟩
  | .hbm, ⟨31, _⟩ => ⟨S_, .f32⟩
  | .hbm, ⟨32, _⟩ => ⟨S262144x10, .f32⟩
  | .hbm, ⟨33, _⟩ => ⟨S262144x10, .i1⟩
  | .hbm, ⟨34, _⟩ => ⟨S262144x10, .f32⟩
  | .hbm, ⟨35, _⟩ => ⟨S24x10, .f32⟩
  | .hbm, ⟨36, _⟩ => ⟨S24x10, .f32⟩
  | .hbm, ⟨37, _⟩ => ⟨S262144x10, .f32⟩
  | .hbm, ⟨38, _⟩ => ⟨S_, .f32⟩
  | .hbm, ⟨39, _⟩ => ⟨S262144x10, .f32⟩
  | .hbm, ⟨40, _⟩ => ⟨S262144x10, .i1⟩
  | .hbm, ⟨41, _⟩ => ⟨S262144x10, .f32⟩
  | _, _ => ⟨S262144x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S262144x24 : S_.BroadcastsInDim S262144x24 (![] : Fin 0 → Fin S262144x24.rank)
  bcast_S_S262144x50 : S_.BroadcastsInDim S262144x50 (![] : Fin 0 → Fin S262144x50.rank)
  bcast_S_S262144x10 : S_.BroadcastsInDim S262144x10 (![] : Fin 0 → Fin S262144x10.rank)
  dot_S262144x24_S24x24_S262144x24_1_0_0_1_n_n_wf : DotDims.WF S262144x24 S24x24 S262144x24 [1] [0] [0] [1] [] []
  dot_S262144x24_S24x50_S262144x50_1_0_0_1_n_n_wf : DotDims.WF S262144x24 S24x50 S262144x50 [1] [0] [0] [1] [] []
  dot_S262144x24_S262144x50_S24x50_0_0_1_1_n_n_wf : DotDims.WF S262144x24 S262144x50 S24x50 [0] [0] [1] [1] [] []
  dot_S262144x24_S24x10_S262144x10_1_0_0_1_n_n_wf : DotDims.WF S262144x24 S24x10 S262144x10 [1] [0] [0] [1] [] []
  dot_S262144x24_S262144x10_S24x10_0_0_1_1_n_n_wf : DotDims.WF S262144x24 S262144x10 S24x10 [0] [0] [1] [1] [] []
  dot_S262144x10_S10x10_S262144x10_1_0_0_1_n_n_wf : DotDims.WF S262144x10 S10x10 S262144x10 [1] [0] [0] [1] [] []

variable [Facts₀]

def dot_S262144x24_S24x24_S262144x24_1_0_0_1_n_n : DotDims S262144x24 S24x24 S262144x24 where
  lhsContracting := [1]
  rhsContracting := [0]
  lhsNonContracting := [0]
  rhsNonContracting := [1]
  lhsBatch := []
  rhsBatch := []
  wf := dot_S262144x24_S24x24_S262144x24_1_0_0_1_n_n_wf
def dot_S262144x24_S24x50_S262144x50_1_0_0_1_n_n : DotDims S262144x24 S24x50 S262144x50 where
  lhsContracting := [1]
  rhsContracting := [0]
  lhsNonContracting := [0]
  rhsNonContracting := [1]
  lhsBatch := []
  rhsBatch := []
  wf := dot_S262144x24_S24x50_S262144x50_1_0_0_1_n_n_wf
def dot_S262144x24_S262144x50_S24x50_0_0_1_1_n_n : DotDims S262144x24 S262144x50 S24x50 where
  lhsContracting := [0]
  rhsContracting := [0]
  lhsNonContracting := [1]
  rhsNonContracting := [1]
  lhsBatch := []
  rhsBatch := []
  wf := dot_S262144x24_S262144x50_S24x50_0_0_1_1_n_n_wf
def dot_S262144x24_S24x10_S262144x10_1_0_0_1_n_n : DotDims S262144x24 S24x10 S262144x10 where
  lhsContracting := [1]
  rhsContracting := [0]
  lhsNonContracting := [0]
  rhsNonContracting := [1]
  lhsBatch := []
  rhsBatch := []
  wf := dot_S262144x24_S24x10_S262144x10_1_0_0_1_n_n_wf
def dot_S262144x24_S262144x10_S24x10_0_0_1_1_n_n : DotDims S262144x24 S262144x10 S24x10 where
  lhsContracting := [0]
  rhsContracting := [0]
  lhsNonContracting := [1]
  rhsNonContracting := [1]
  lhsBatch := []
  rhsBatch := []
  wf := dot_S262144x24_S262144x10_S24x10_0_0_1_1_n_n_wf
def dot_S262144x10_S10x10_S262144x10_1_0_0_1_n_n : DotDims S262144x10 S10x10 S262144x10 where
  lhsContracting := [1]
  rhsContracting := [0]
  lhsNonContracting := [0]
  rhsNonContracting := [1]
  lhsBatch := []
  rhsBatch := []
  wf := dot_S262144x10_S10x10_S262144x10_1_0_0_1_n_n_wf

class Facts : Prop extends Facts₀ where

variable [Facts]
-- ==== Proof.Pieces.lean ====
/-
  What each case of the kernel's body leaves in its buffers, as the body's own arithmetic of the buffers it read.

  At the first grid point the four accumulators are zeroed before they are added to; at the other points they are
  added to as the point before left them; at the last point each accumulator, once added to, is copied into its result
  buffer. At every point the three streamed buffers receive the layers computed from the point's input blocks. Every
  store covers its whole buffer, so what a buffer holds afterwards is the last store's value.
-/
import proofs.«105392_j46213848105974_2_alg».proof.Proof.FrameKI
import Idealize.ShloMosaic.Lib.Pipeline.Value

noncomputable section

namespace Cert.KernelIdeal.Pieces

open Cert.KernelIdeal Cert.KernelIdeal.Gen Cert.KernelIdeal.GenP Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

theorem out_A_9 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    out0_A_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8
      = k0_pay15 (k0_pay8 x3) (k0_pay9 x4) (k0_pay13 x0 x2) (k0_pay14 x1 x5) (constant S8192x50 .f32 0x00000000#32) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_A_10 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    out0_A_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8
      = k0_pay19 (k0_pay10 x6) (k0_pay11 x7) (k0_pay13 x0 x2) (k0_pay14 x1 x5) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_A_11 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    out0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8
      = k0_pay3 (k0_pay12 x8) (k0_pay20 (k0_pay10 x6) (k0_pay11 x7) (k0_pay13 x0 x2) (k0_pay14 x1 x5)) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_A_0 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    sout0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8
      = k0_pay17 (k0_pay8 x3) (k0_pay9 x4) (k0_pay13 x0 x2) (k0_pay14 x1 x5) (constant S8192x50 .f32 0x00000000#32) k0_pay4 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8)]
  unfold kernelRun0_A
  dsimp only
  sl_unfold_words
  rw [View.canon_cons_unit_zero (S := S24x50) hz, View.readCov_unit_zero (S := S24x50) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_A_1 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    sout0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8
      = k0_pay18 (k0_pay8 x3) (k0_pay9 x4) (k0_pay13 x0 x2) (k0_pay14 x1 x5) (constant S8192x50 .f32 0x00000000#32) k0_pay5 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8)]
  unfold kernelRun0_A
  dsimp only
  sl_unfold_words
  rw [View.canon_cons_unit_zero (S := S24x50) hz, View.readCov_unit_zero (S := S24x50) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_A_2 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    sout0_A_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8
      = k0_pay1 (k0_pay21 (k0_pay10 x6) (k0_pay11 x7) (k0_pay13 x0 x2) (k0_pay14 x1 x5) k0_pay6) := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8)]
  unfold kernelRun0_A
  dsimp only
  sl_unfold_words
  rw [View.canon_cons_unit_zero (S := S24x10) hz, View.readCov_unit_zero (S := S24x10) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_A_3 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) :
    sout0_A_3 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8
      = k0_pay2 (k0_pay14 x1 x5) (k0_pay20 (k0_pay10 x6) (k0_pay11 x7) (k0_pay13 x0 x2) (k0_pay14 x1 x5)) k0_pay7 := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8)]
  unfold kernelRun0_A
  dsimp only
  sl_unfold_words
  rw [View.canon_cons_unit_zero (S := S24x10) hz, View.readCov_unit_zero (S := S24x10) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_B_9 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_B_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay15 (k0_pay8 x3) (k0_pay9 x4) (k0_pay13 x0 x2) (k0_pay14 x1 x5) (constant S8192x50 .f32 0x00000000#32) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_B_10 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_B_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay19 (k0_pay10 x6) (k0_pay11 x7) (k0_pay13 x0 x2) (k0_pay14 x1 x5) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_B_11 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay3 (k0_pay12 x8) (k0_pay20 (k0_pay10 x6) (k0_pay11 x7) (k0_pay13 x0 x2) (k0_pay14 x1 x5)) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_B_0 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay17 (k0_pay8 x3) (k0_pay9 x4) (k0_pay13 x0 x2) (k0_pay14 x1 x5) (constant S8192x50 .f32 0x00000000#32) xs0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_B_1 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay18 (k0_pay8 x3) (k0_pay9 x4) (k0_pay13 x0 x2) (k0_pay14 x1 x5) (constant S8192x50 .f32 0x00000000#32) xs1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_B_2 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_B_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay1 (k0_pay21 (k0_pay10 x6) (k0_pay11 x7) (k0_pay13 x0 x2) (k0_pay14 x1 x5) xs2) := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_B_3 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : ¬cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_B_3 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay2 (k0_pay14 x1 x5) (k0_pay20 (k0_pay10 x6) (k0_pay11 x7) (k0_pay13 x0 x2) (k0_pay14 x1 x5)) xs3 := by
  unfold sout0_B_3
  rw [View.read_writes_eq_canon _ _ _ (scover0_B_3 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_C_9 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay15 (k0_pay8 x3) (k0_pay9 x4) (k0_pay13 x0 x2) (k0_pay14 x1 x5) (constant S8192x50 .f32 0x00000000#32) := by
  unfold out0_C_9
  rw [View.read_writes_eq_canon _ _ _ (cover0_C_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_C_10 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay19 (k0_pay10 x6) (k0_pay11 x7) (k0_pay13 x0 x2) (k0_pay14 x1 x5) := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_C_11 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay3 (k0_pay12 x8) (k0_pay20 (k0_pay10 x6) (k0_pay11 x7) (k0_pay13 x0 x2) (k0_pay14 x1 x5)) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_C_0 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_C_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay17 (k0_pay8 x3) (k0_pay9 x4) (k0_pay13 x0 x2) (k0_pay14 x1 x5) (constant S8192x50 .f32 0x00000000#32) xs0 := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_C_1 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_C_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay18 (k0_pay8 x3) (k0_pay9 x4) (k0_pay13 x0 x2) (k0_pay14 x1 x5) (constant S8192x50 .f32 0x00000000#32) xs1 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_C_2 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_C_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay1 (k0_pay21 (k0_pay10 x6) (k0_pay11 x7) (k0_pay13 x0 x2) (k0_pay14 x1 x5) xs2) := by
  unfold sout0_C_2
  rw [View.read_writes_eq_canon _ _ _ (scover0_C_2 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem sout_C_3 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    sout0_C_3 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay2 (k0_pay14 x1 x5) (k0_pay20 (k0_pay10 x6) (k0_pay11 x7) (k0_pay13 x0 x2) (k0_pay14 x1 x5)) xs3 := by
  unfold sout0_C_3
  rw [View.read_writes_eq_canon _ _ _ (scover0_C_3 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_C_12 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay17 (k0_pay8 x3) (k0_pay9 x4) (k0_pay13 x0 x2) (k0_pay14 x1 x5) (constant S8192x50 .f32 0x00000000#32) xs0 := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz, View.readCov_unit_zero (S := S24x50) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_C_13 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay18 (k0_pay8 x3) (k0_pay9 x4) (k0_pay13 x0 x2) (k0_pay14 x1 x5) (constant S8192x50 .f32 0x00000000#32) xs1 := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz, View.readCov_unit_zero (S := S24x50) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_C_14 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay1 (k0_pay21 (k0_pay10 x6) (k0_pay11 x7) (k0_pay13 x0 x2) (k0_pay14 x1 x5) xs2) := by
  unfold out0_C_14
  rw [View.read_writes_eq_canon _ _ _ (cover0_C_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz, View.readCov_unit_zero (S := S24x10) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

theorem out_C_15 (c : Dev nD) (i : grid0.Coords) (a1 : Memref sig .tc .vmem S8192x24 .f32) (h1 : a1.IsWhole) (a2 : Memref sig .tc .vmem S8192x24 .f32) (h2 : a2.IsWhole) (a3 : Memref sig .tc .vmem S24x24 .f32) (h3 : a3.IsWhole) (a4 : Memref sig .tc .vmem S24x50 .f32) (h4 : a4.IsWhole) (a5 : Memref sig .tc .vmem S24x50 .f32) (h5 : a5.IsWhole) (a6 : Memref sig .tc .vmem S24x24 .f32) (h6 : a6.IsWhole) (a7 : Memref sig .tc .vmem S24x10 .f32) (h7 : a7.IsWhole) (a8 : Memref sig .tc .vmem S24x10 .f32) (h8 : a8.IsWhole) (a9 : Memref sig .tc .vmem S10x10 .f32) (h9 : a9.IsWhole) (a10 : Memref sig .tc .vmem S8192x50 .f32) (h10 : a10.IsWhole) (a11 : Memref sig .tc .vmem S8192x10 .f32) (h11 : a11.IsWhole) (a12 : Memref sig .tc .vmem S8192x10 .f32) (h12 : a12.IsWhole) (a13 : Memref sig .tc .vmem S24x50 .f32) (h13 : a13.IsWhole) (a14 : Memref sig .tc .vmem S24x50 .f32) (h14 : a14.IsWhole) (a15 : Memref sig .tc .vmem S24x10 .f32) (h15 : a15.IsWhole) (a16 : Memref sig .tc .vmem S24x10 .f32) (h16 : a16.IsWhole) (a17 : Memref sig .tc .vmem S24x50 .f32) (h17 : a17.IsWhole) (a18 : Memref sig .tc .vmem S24x50 .f32) (h18 : a18.IsWhole) (a19 : Memref sig .tc .vmem S24x10 .f32) (h19 : a19.IsWhole) (a20 : Memref sig .tc .vmem S24x10 .f32) (h20 : a20.IsWhole) (hc0 : ¬cond0_0 i) (hc1 : cond0_1 i)
    (x0 : Vec F S8192x24 .f32) (x1 : Vec F S8192x24 .f32) (x2 : Vec F S24x24 .f32) (x3 : Vec F S24x50 .f32) (x4 : Vec F S24x50 .f32) (x5 : Vec F S24x24 .f32) (x6 : Vec F S24x10 .f32) (x7 : Vec F S24x10 .f32) (x8 : Vec F S10x10 .f32) (xs0 : Vec F S24x50 .f32) (xs1 : Vec F S24x50 .f32) (xs2 : Vec F S24x10 .f32) (xs3 : Vec F S24x10 .f32) :
    out0_C_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3
      = k0_pay2 (k0_pay14 x1 x5) (k0_pay20 (k0_pay10 x6) (k0_pay11 x7) (k0_pay13 x0 x2) (k0_pay14 x1 x5)) xs3 := by
  unfold out0_C_15
  rw [View.read_writes_eq_canon _ _ _ (cover0_C_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 xs0 xs1 xs2 xs3)]
  unfold kernelRun0_C
  dsimp only
  sl_unfold_words
  rw [View.canon_unit_zero hz, View.readCov_unit_zero (S := S24x10) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, View.ld_unit_zero (S := S8192x24) hz, View.ld_unit_zero (S := S24x24) hz, View.ld_unit_zero (S := S24x50) hz, View.ld_unit_zero (S := S24x10) hz, View.ld_unit_zero (S := S10x10) hz, View.ld_unit_zero (S := S8192x50) hz, View.ld_unit_zero (S := S8192x10) hz]

end Cert.KernelIdeal.Pieces

end
-- ==== Proof.Spec.lean ====
/-
  The network, one input row at a time, over the extended reals.

  A neuron fires (value 1) when its drive exceeds one half and is silent (value 0) otherwise. A layer's drive at output
  `j` is the weighted sum `∑ c, x c · W c j` of the row it reads. The first layer maps each of the two input rows through
  its own square weight matrix; the two middle layers read both first-layer rows through a pair of weight matrices and add
  the two drives; the last layer reads the second middle layer's row. Every row of the batch goes through the same
  functions, so both programs' results are these functions of the rows, and the four plasticity matrices are sums over
  the batch of products of two layers' outputs.
-/
import Idealize.ShloMosaic.PureOps.Ideal
import Idealize.ShloMosaic.Lib.ValueIdx

noncomputable section

namespace Cert.Spec

open Idealize.ShloMosaic Idealize.ShloMosaic.ValueIdx

/-- The firing rule: 1 when the drive exceeds one half, else 0 (the comparison's bit read as a number). -/
def fire (v : EReal) : EReal :=
  FloatOps.uitofp (F := Ideal) .f32 (FloatOps.cmpf (F := Ideal) (φ := .f32) .ogt v (Ideal.ofBits .f32 0x3F000000#32))

/-- The drive of output `j`: the row `x` weighted by column `j` of `W`. -/
def drive {k n : Nat} (x : Fin k → EReal) (W : Fin k → Fin n → EReal) (j : Fin n) : EReal := ∑ c : Fin k, x c * W c j

/-- A layer reading one row. -/
def layer {k n : Nat} (W : Fin k → Fin n → EReal) (x : Fin k → EReal) : Fin n → EReal := fun j => fire (drive x W j)

/-- A layer reading two rows through two weight matrices, the drives added. -/
def layer2 {k n : Nat} (Wa Wb : Fin k → Fin n → EReal) (xa xb : Fin k → EReal) : Fin n → EReal :=
  fun j => fire (drive xa Wa j + drive xb Wb j)

/-- Row `r` of a matrix stored as a rank-2 array. -/
def row {m k : Nat} (X : (⟨2, ![m, k]⟩ : Shape).Idx → EReal) (r : Fin m) : Fin k → EReal := fun c => X (ix2 r c)

/-- A rank-2 array as a function of its two coordinates. -/
def mat {k n : Nat} (W : (⟨2, ![k, n]⟩ : Shape).Idx → EReal) : Fin k → Fin n → EReal := fun c j => W (ix2 c j)

/-! ## The results as whole arrays -/

section Results

variable (X1 X2 : (⟨2, ![262144, 24]⟩ : Shape).Idx → EReal) (W0 W3 : (⟨2, ![24, 24]⟩ : Shape).Idx → EReal)
  (W1 W2 : (⟨2, ![24, 50]⟩ : Shape).Idx → EReal) (W4 W5 : (⟨2, ![24, 10]⟩ : Shape).Idx → EReal)
  (W6 : (⟨2, ![10, 10]⟩ : Shape).Idx → EReal)

/-- First layer of the first input, batch row `b`. -/
def firstA (b : Fin 262144) : Fin 24 → EReal := layer (mat W0) (row X1 b)
/-- First layer of the second input, batch row `b`. -/
def firstB (b : Fin 262144) : Fin 24 → EReal := layer (mat W3) (row X2 b)
/-- The wide middle layer, batch row `b`. -/
def wide (b : Fin 262144) : Fin 50 → EReal := layer2 (mat W1) (mat W2) (firstA X1 W0 b) (firstB X2 W3 b)
/-- The narrow middle layer, batch row `b`. -/
def narrow (b : Fin 262144) : Fin 10 → EReal := layer2 (mat W4) (mat W5) (firstA X1 W0 b) (firstB X2 W3 b)
/-- The last layer, batch row `b`. -/
def last (b : Fin 262144) : Fin 10 → EReal := layer (mat W6) (narrow X1 X2 W0 W3 W4 W5 b)

/-- The wide middle layer's outputs, the whole batch. -/
def wideArr : (⟨2, ![262144, 50]⟩ : Shape).Idx → EReal := fun i => wide X1 X2 W0 W3 W1 W2 (i 0) (i 1)
/-- The narrow middle layer's outputs. -/
def narrowArr : (⟨2, ![262144, 10]⟩ : Shape).Idx → EReal := fun i => narrow X1 X2 W0 W3 W4 W5 (i 0) (i 1)
/-- The last layer's outputs. -/
def lastArr : (⟨2, ![262144, 10]⟩ : Shape).Idx → EReal := fun i => last X1 X2 W0 W3 W4 W5 W6 (i 0) (i 1)
/-- Plasticity of first input's first layer against the wide layer: the sum over the batch of the products. -/
def corrAWide : (⟨2, ![24, 50]⟩ : Shape).Idx → EReal :=
  fun i => ∑ b : Fin 262144, firstA X1 W0 b (i 0) * wide X1 X2 W0 W3 W1 W2 b (i 1)
/-- … of the second input's first layer against the wide layer. -/
def corrBWide : (⟨2, ![24, 50]⟩ : Shape).Idx → EReal :=
  fun i => ∑ b : Fin 262144, firstB X2 W3 b (i 0) * wide X1 X2 W0 W3 W1 W2 b (i 1)
/-- … of the first input's first layer against the narrow layer. -/
def corrANarrow : (⟨2, ![24, 10]⟩ : Shape).Idx → EReal :=
  fun i => ∑ b : Fin 262144, firstA X1 W0 b (i 0) * narrow X1 X2 W0 W3 W4 W5 b (i 1)
/-- … of the second input's first layer against the narrow layer. -/
def corrBNarrow : (⟨2, ![24, 10]⟩ : Shape).Idx → EReal :=
  fun i => ∑ b : Fin 262144, firstB X2 W3 b (i 0) * narrow X1 X2 W0 W3 W4 W5 b (i 1)

end Results

end Cert.Spec

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRowContraction.lean ====
/-
  A product of two matrices contracted along their common FIRST axis, `[R, a] × [R, b] → [a, b]` (`Aᵀ · B`), read at
  an index, over arbitrary sizes.

  At the extended reals a kernel's matrix product into a zero accumulator and the host's product of the same operands
  are both the textbook contraction: entry `(i, o)` is `∑ r, A (r, i) · B (r, o)`, the sum over the shared rows.
-/
import Idealize.ShloMosaic.Lib.ValueIdx
import Idealize.ShloMosaic.Lib.KernelVsHost
import Idealize.ShloMosaic.PureOps.Ideal.Laws

noncomputable section

namespace Cert.Lib.RowContraction

open Idealize.ShloMosaic Idealize.ShloMosaic.ValueIdx

variable {R a b : Nat} {φ₁ φ₂ : FTy}

/-- The host's product with both operands contracted along axis 0, at `(i, o)`: the sum over the shared row index. -/
theorem dotGeneral_rows_apply
    (w : DotDims.WF ⟨2, ![R, a]⟩ ⟨2, ![R, b]⟩ ⟨2, ![a, b]⟩ [0] [0] [1] [1] [] [])
    (prec : Option ContractPrecision) (A : FVec Ideal ⟨2, ![R, a]⟩ φ₁) (B : FVec Ideal ⟨2, ![R, b]⟩ φ₂)
    (i : Fin a) (o : Fin b) :
    Host.dotGeneral (⟨[0], [0], [1], [1], [], [], w⟩ : DotDims _ _ _) prec A B (ix2 i o)
      = ∑ r : Fin R, A (ix2 r i) * B (ix2 r o) := by
  show FloatOps.dotGeneral _ prec _ A B (ix2 i o) = _
  rw [Ideal.dotGeneral_apply,
    ← Equiv.sum_comp (contrEquiv1 (⟨[0], [0], [1], [1], [], [], w⟩ : DotDims _ _ _) R rfl rfl).symm]
  refine Finset.sum_congr rfl fun r _ => ?_
  have c2 := contrEquiv1_symm_val
    (⟨[0], [0], [1], [1], [], [], w⟩ : DotDims ⟨2, ![R, a]⟩ ⟨2, ![R, b]⟩ ⟨2, ![a, b]⟩) R rfl rfl r
  have l2 : (⟨[0], [0], [1], [1], [], [], w⟩ : DotDims ⟨2, ![R, a]⟩ ⟨2, ![R, b]⟩ ⟨2, ![a, b]⟩).lhsIdx (ix2 i o)
      ((contrEquiv1 _ R rfl rfl).symm r) = ix2 r i := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![R, a]⟩ ⟨2, ![R, b]⟩ ⟨2, ![a, b]⟩).rhsIdx (ix2 i o)
      ((contrEquiv1 _ R rfl rfl).symm r) = ix2 r o := by
    funext ax; apply Fin.ext
    match ax with
    | ⟨0, _⟩ => simp [DotDims.rhsIdx]; exact c2
    | ⟨1, _⟩ => simp [DotDims.rhsIdx]; rfl
  rw [l2, r2]

/-- A kernel's product of the same kind into the zero splat, at `(i, o)`: the same sum. -/
theorem matmul_rows_apply
    (w : DotDims.WF ⟨2, ![R, a]⟩ ⟨2, ![R, b]⟩ ⟨2, ![a, b]⟩ [0] [0] [1] [1] [] [])
    (prec : Option ContractPrecision) (A : FVec Ideal ⟨2, ![R, a]⟩ φ₁) (B : FVec Ideal ⟨2, ![R, b]⟩ φ₂)
    (i : Fin a) (o : Fin b) :
    matmul (⟨[0], [0], [1], [1], [], [], w⟩ : DotDims _ _ _) prec A B (constant ⟨2, ![a, b]⟩ .f32 0x00000000#32) (ix2 i o)
      = ∑ r : Fin R, A (ix2 r i) * B (ix2 r o) := by
  rw [matmul_zero_eq_dotGeneral]
  exact dotGeneral_rows_apply w prec A B i o

end Cert.Lib.RowContraction

end
-- ==== Proof.Ops.lean ====
/-
  The operations both programs are built from, read at an index over the extended reals, for any number of rows.

  A product `[m, k] × [k, n]` at `(r, j)` is the drive of output `j` by row `r`; the thresholding, whether the
  kernel's (compare, widen the bit, convert the signed word) or the host's (compare, convert the bit), is the firing
  rule; a product contracted along the rows at `(i, o)` is the sum over the rows of the products of the two entries.
-/
import proofs.«105392_j46213848105974_2_alg».proof.Proof.Spec
import proofs.«105392_j46213848105974_2_alg».proof.Proof.LibPlainProduct
import proofs.«105392_j46213848105974_2_alg».proof.Proof.LibRowContraction

noncomputable section

namespace Cert.Ops

open Idealize.ShloMosaic Idealize.ShloMosaic.ValueIdx Cert.Spec

variable {m k n : Nat} {φ₁ φ₂ : FTy}

/-- The kernel's thresholding at an index: compare with the splat one half, widen the bit to a word, convert it. -/
theorem kernel_fire {s : Shape} (v : FVec Ideal s .f32) (h : 1 < 32) (i : s.Idx) :
    (sitofp .f32 (extui 32 (cmpf .ogt v (broadcast s (Scalar.ofBits (F := Ideal) .f32 0x3F000000#32))) h) : FVec Ideal s .f32) i
      = fire (v i) :=
  congrFun (sitofp_extui_eq_uitofp (cmpf .ogt v (broadcast s (Scalar.ofBits (F := Ideal) .f32 0x3F000000#32))) h) i

/-- The host's thresholding at an index: compare with the broadcast constant one half, convert the bit. -/
theorem host_fire {s0 s : Shape} (v : FVec Ideal s .f32) (dims : Fin s0.rank → Fin s.rank) (hb : s0.BroadcastsInDim s dims) (i : s.Idx) :
    (uitofp .f32 (cmpf .ogt v (broadcastInDim s dims hb (constant (F := Ideal) s0 .f32 0x3F000000#32))) : FVec Ideal s .f32) i
      = fire (v i) := by
  rw [broadcastInDim_constant]
  rfl

/-- A kernel's plain product into the zero splat at `(r, j)`: the drive of `j` by row `r`. -/
theorem matmul_drive (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (r : Fin m) (j : Fin n) :
    matmul d none A B (constant ⟨2, ![m, n]⟩ .f32 0x00000000#32) (ix2 r j) = drive (row A r) (mat B) j :=
  Cert.PlainProduct.matmul_plain_apply d hd none A B r j

/-- The host's plain product at `(r, j)`: the same drive. -/
theorem dotGeneral_drive (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (r : Fin m) (j : Fin n) :
    Host.dotGeneral d none A B (ix2 r j) = drive (row A r) (mat B) j :=
  Cert.PlainProduct.dotGeneral_plain_apply' d hd none A B r j

end Cert.Ops

end
-- ==== Proof.Payload.lean ====
/-
  What each store of the kernel's body writes, read at an index over the extended reals.

  The body computes, for the block of 8192 rows it is given, the first layer of both inputs, the two middle layers and
  the last layer, row by row, and adds to each of its four accumulators the product, contracted over the block's rows,
  of a first-layer output with a middle-layer output. Rounding to the narrower float format is the identity on the
  extended reals, a product into a zero accumulator is the plain contraction, and a cast of a shape to itself changes
  nothing.
-/
import proofs.«105392_j46213848105974_2_alg».proof.Proof.Gen.KernelIdeal.Skeleton
import proofs.«105392_j46213848105974_2_alg».proof.Proof.Ops
import Idealize.ShloMosaic.Lib.Pipeline.Value

noncomputable section

namespace Cert.KernelIdeal.Pay

open Cert.KernelIdeal Cert.KernelIdeal.Gen Idealize.ShloMosaic Idealize.ShloMosaic.ValueIdx Cert.Spec Cert.Ops

/-- The zero splat the body's products start from. -/
abbrev z50 : FVec Ideal S8192x50 .f32 := constant S8192x50 .f32 0x00000000#32

/-- First layer of the first input, at row `r`, neuron `j`. -/
theorem pay13_apply (x0 : Vec Ideal S8192x24 .f32) (x2 : Vec Ideal S24x24 .f32) (r : Fin 8192) (j : Fin 24) :
    k0_pay13 (F := Ideal) x0 x2 (ix2 r j) = layer (mat x2) (row x0 r) j := by
  unfold k0_pay13
  refine (kernel_fire _ _ (ix2 r j)).trans ?_
  exact congrArg fire (matmul_drive _ rfl _ _ r j)

/-- First layer of the second input. -/
theorem pay14_apply (x1 : Vec Ideal S8192x24 .f32) (x5 : Vec Ideal S24x24 .f32) (r : Fin 8192) (j : Fin 24) :
    k0_pay14 (F := Ideal) x1 x5 (ix2 r j) = layer (mat x5) (row x1 r) j := by
  unfold k0_pay14
  refine (kernel_fire _ _ (ix2 r j)).trans ?_
  exact congrArg fire (matmul_drive _ rfl _ _ r j)

/-- The wide middle layer, from the two first-layer blocks. -/
theorem pay15_apply (v10 v12 : FVec Ideal S24x50 .bf16) (v26 v32 : FVec Ideal S8192x24 .bf16) (r : Fin 8192) (j : Fin 50) :
    k0_pay15 (F := Ideal) v10 v12 v26 v32 z50 (ix2 r j) = layer2 (mat v10) (mat v12) (row v26 r) (row v32 r) j := by
  unfold k0_pay15
  refine (kernel_fire _ _ (ix2 r j)).trans ?_
  refine congrArg fire ?_
  exact congrArg₂ (· + ·) (matmul_drive _ rfl v26 v10 r j) (matmul_drive _ rfl v32 v12 r j)

/-- Its rounded copy is the same block. -/
theorem pay16_apply (v10 v12 : FVec Ideal S24x50 .bf16) (v26 v32 : FVec Ideal S8192x24 .bf16) (i : S8192x50.Idx) :
    k0_pay16 (F := Ideal) v10 v12 v26 v32 z50 i = k0_pay15 (F := Ideal) v10 v12 v26 v32 z50 i := rfl

/-- The narrow middle layer. -/
theorem pay19_apply (v16 v18 : FVec Ideal S24x10 .bf16) (v26 v32 : FVec Ideal S8192x24 .bf16) (r : Fin 8192) (j : Fin 10) :
    k0_pay19 (F := Ideal) v16 v18 v26 v32 (ix2 r j) = layer2 (mat v16) (mat v18) (row v26 r) (row v32 r) j := by
  unfold k0_pay19
  refine (kernel_fire _ _ (ix2 r j)).trans ?_
  refine congrArg fire ?_
  exact congrArg₂ (· + ·) (matmul_drive _ rfl v26 v16 r j) (matmul_drive _ rfl v32 v18 r j)

theorem pay20_apply (v16 v18 : FVec Ideal S24x10 .bf16) (v26 v32 : FVec Ideal S8192x24 .bf16) (i : S8192x10.Idx) :
    k0_pay20 (F := Ideal) v16 v18 v26 v32 i = k0_pay19 (F := Ideal) v16 v18 v26 v32 i := rfl

/-- The last layer, from the narrow middle layer's block. -/
theorem pay3_apply (v20 : FVec Ideal S10x10 .bf16) (v61 : FVec Ideal S8192x10 .bf16) (r : Fin 8192) (j : Fin 10) :
    k0_pay3 (F := Ideal) v20 v61 (ix2 r j) = layer (mat v20) (row v61 r) j := by
  unfold k0_pay3
  refine (kernel_fire _ _ (ix2 r j)).trans ?_
  exact congrArg fire (matmul_drive _ rfl v61 v20 r j)

/-- First accumulator's new contents: the old ones plus, over the block's rows, first input's first layer times the
    wide middle layer. -/
theorem pay17_apply (v10 v12 : FVec Ideal S24x50 .bf16) (v26 v32 : FVec Ideal S8192x24 .bf16) (v42 : Vec Ideal S24x50 .f32)
    (i : Fin 24) (o : Fin 50) :
    k0_pay17 (F := Ideal) v10 v12 v26 v32 z50 v42 (ix2 i o)
      = v42 (ix2 i o) + ∑ r : Fin 8192, v26 (ix2 r i) * k0_pay15 (F := Ideal) v10 v12 v26 v32 z50 (ix2 r o) := by
  unfold k0_pay17
  refine (congrFun (shapeCast_self _ _) (ix2 i o)).trans ?_
  exact congrArg (v42 (ix2 i o) + ·)
    (Cert.Lib.RowContraction.matmul_rows_apply _ none v26 (k0_pay16 (F := Ideal) v10 v12 v26 v32 z50) i o)

/-- Second accumulator: the same with the second input's first layer. -/
theorem pay18_apply (v10 v12 : FVec Ideal S24x50 .bf16) (v26 v32 : FVec Ideal S8192x24 .bf16) (v48 : Vec Ideal S24x50 .f32)
    (i : Fin 24) (o : Fin 50) :
    k0_pay18 (F := Ideal) v10 v12 v26 v32 z50 v48 (ix2 i o)
      = v48 (ix2 i o) + ∑ r : Fin 8192, v32 (ix2 r i) * k0_pay15 (F := Ideal) v10 v12 v26 v32 z50 (ix2 r o) := by
  unfold k0_pay18
  refine (congrFun (shapeCast_self _ _) (ix2 i o)).trans ?_
  exact congrArg (v48 (ix2 i o) + ·)
    (Cert.Lib.RowContraction.matmul_rows_apply _ none v32 (k0_pay16 (F := Ideal) v10 v12 v26 v32 z50) i o)

/-- Third accumulator: first input's first layer times the narrow middle layer. -/
theorem pay21_apply (v16 v18 : FVec Ideal S24x10 .bf16) (v26 v32 : FVec Ideal S8192x24 .bf16) (v63 : Vec Ideal S24x10 .f32)
    (i : Fin 24) (o : Fin 10) :
    k0_pay1 (F := Ideal) (k0_pay21 (F := Ideal) v16 v18 v26 v32 v63) (ix2 i o)
      = v63 (ix2 i o) + ∑ r : Fin 8192, v26 (ix2 r i) * k0_pay19 (F := Ideal) v16 v18 v26 v32 (ix2 r o) := by
  unfold k0_pay1 k0_pay21
  refine (congrFun (shapeCast_self _ _) (ix2 i o)).trans ?_
  exact congrArg (v63 (ix2 i o) + ·)
    (Cert.Lib.RowContraction.matmul_rows_apply _ none v26 (k0_pay20 (F := Ideal) v16 v18 v26 v32) i o)

/-- Fourth accumulator: second input's first layer times the narrow middle layer (given as the block `v61`). -/
theorem pay2_apply (v32 : FVec Ideal S8192x24 .bf16) (v61 : FVec Ideal S8192x10 .bf16) (v69 : Vec Ideal S24x10 .f32)
    (i : Fin 24) (o : Fin 10) :
    k0_pay2 (F := Ideal) v32 v61 v69 (ix2 i o) = v69 (ix2 i o) + ∑ r : Fin 8192, v32 (ix2 r i) * v61 (ix2 r o) := by
  unfold k0_pay2
  refine (congrFun (shapeCast_self _ _) (ix2 i o)).trans ?_
  exact congrArg (v69 (ix2 i o) + ·) (Cert.Lib.RowContraction.matmul_rows_apply _ none v32 v61 i o)

/-- The four resets store zeros. -/
theorem pay4_apply (i : S24x50.Idx) : k0_pay4 (F := Ideal) i = 0 := by
  unfold k0_pay4
  refine (congrFun (shapeCast_self _ _) i).trans ?_
  exact Ideal.ofBits_zero_f32
theorem pay5_apply (i : S24x50.Idx) : k0_pay5 (F := Ideal) i = 0 := by
  unfold k0_pay5
  refine (congrFun (shapeCast_self _ _) i).trans ?_
  exact Ideal.ofBits_zero_f32
theorem pay6_apply (i : S24x10.Idx) : k0_pay6 (F := Ideal) i = 0 := by
  unfold k0_pay6
  refine (congrFun (shapeCast_self _ _) i).trans ?_
  exact Ideal.ofBits_zero_f32
theorem pay7_apply (i : S24x10.Idx) : k0_pay7 (F := Ideal) i = 0 := by
  unfold k0_pay7
  refine (congrFun (shapeCast_self _ _) i).trans ?_
  exact Ideal.ofBits_zero_f32

end Cert.KernelIdeal.Pay

end
-- ==== Proof.Bridge.lean ====
/-
  One block of the kernel's work is the network on the block's rows.

  Given that row `r` of the two input blocks is batch row `β r` of the two inputs and that the weight blocks are the
  weight matrices, each streamed store of the body holds, at `(r, j)`, the corresponding layer of batch row `β r`, and
  each accumulator store holds the old contents plus the sum over the block's rows of the product of two layers.
-/
import proofs.«105392_j46213848105974_2_alg».proof.Proof.Payload

noncomputable section

namespace Cert.KernelIdeal.Bridge

open Cert.KernelIdeal Cert.KernelIdeal.Gen Cert.KernelIdeal.Pay Idealize.ShloMosaic Idealize.ShloMosaic.ValueIdx Cert.Spec

variable (x0 x1 : Vec Ideal S8192x24 .f32) (x2 x5 : Vec Ideal S24x24 .f32) (x3 x4 : Vec Ideal S24x50 .f32)
  (x6 x7 : Vec Ideal S24x10 .f32) (x8 : Vec Ideal S10x10 .f32)
variable (X1 X2 : (⟨2, ![262144, 24]⟩ : Shape).Idx → EReal) (W0 W3 : (⟨2, ![24, 24]⟩ : Shape).Idx → EReal)
  (W1 W2 : (⟨2, ![24, 50]⟩ : Shape).Idx → EReal) (W4 W5 : (⟨2, ![24, 10]⟩ : Shape).Idx → EReal)
  (W6 : (⟨2, ![10, 10]⟩ : Shape).Idx → EReal)
variable (β : Fin 8192 → Fin 262144)

/-- The block's first layer of the first input. -/
theorem firstA_blk (h0 : ∀ r, row x0 r = row X1 (β r)) (h2 : mat x2 = mat W0) (r : Fin 8192) :
    row (k0_pay13 (F := Ideal) x0 x2) r = firstA X1 W0 (β r) := by
  funext j
  show k0_pay13 (F := Ideal) x0 x2 (ix2 r j) = layer (mat W0) (row X1 (β r)) j
  rw [pay13_apply, h0, h2]

/-- The block's first layer of the second input. -/
theorem firstB_blk (h1 : ∀ r, row x1 r = row X2 (β r)) (h5 : mat x5 = mat W3) (r : Fin 8192) :
    row (k0_pay14 (F := Ideal) x1 x5) r = firstB X2 W3 (β r) := by
  funext j
  show k0_pay14 (F := Ideal) x1 x5 (ix2 r j) = layer (mat W3) (row X2 (β r)) j
  rw [pay14_apply, h1, h5]

/-- The block's wide middle layer. -/
theorem wide_blk (h0 : ∀ r, row x0 r = row X1 (β r)) (h1 : ∀ r, row x1 r = row X2 (β r)) (h2 : mat x2 = mat W0)
    (h3 : mat x3 = mat W1) (h4 : mat x4 = mat W2) (h5 : mat x5 = mat W3) (r : Fin 8192) (j : Fin 50) :
    k0_pay15 (F := Ideal) (k0_pay8 x3) (k0_pay9 x4) (k0_pay13 x0 x2) (k0_pay14 x1 x5) z50 (ix2 r j)
      = wide X1 X2 W0 W3 W1 W2 (β r) j := by
  rw [pay15_apply, firstA_blk x0 x2 X1 W0 β h0 h2, firstB_blk x1 x5 X2 W3 β h1 h5]
  have e3 : mat (k0_pay8 (F := Ideal) x3) = mat W1 := h3
  have e4 : mat (k0_pay9 (F := Ideal) x4) = mat W2 := h4
  rw [e3, e4]
  rfl

/-- The block's narrow middle layer. -/
theorem narrow_blk (h0 : ∀ r, row x0 r = row X1 (β r)) (h1 : ∀ r, row x1 r = row X2 (β r)) (h2 : mat x2 = mat W0)
    (h5 : mat x5 = mat W3) (h6 : mat x6 = mat W4) (h7 : mat x7 = mat W5) (r : Fin 8192) (j : Fin 10) :
    k0_pay19 (F := Ideal) (k0_pay10 x6) (k0_pay11 x7) (k0_pay13 x0 x2) (k0_pay14 x1 x5) (ix2 r j)
      = narrow X1 X2 W0 W3 W4 W5 (β r) j := by
  rw [pay19_apply, firstA_blk x0 x2 X1 W0 β h0 h2, firstB_blk x1 x5 X2 W3 β h1 h5]
  have e6 : mat (k0_pay10 (F := Ideal) x6) = mat W4 := h6
  have e7 : mat (k0_pay11 (F := Ideal) x7) = mat W5 := h7
  rw [e6, e7]
  rfl

/-- The block's last layer. -/
theorem last_blk (h0 : ∀ r, row x0 r = row X1 (β r)) (h1 : ∀ r, row x1 r = row X2 (β r)) (h2 : mat x2 = mat W0)
    (h5 : mat x5 = mat W3) (h6 : mat x6 = mat W4) (h7 : mat x7 = mat W5) (h8 : mat x8 = mat W6) (r : Fin 8192) (j : Fin 10) :
    k0_pay3 (F := Ideal) (k0_pay12 x8) (k0_pay20 (k0_pay10 x6) (k0_pay11 x7) (k0_pay13 x0 x2) (k0_pay14 x1 x5)) (ix2 r j)
      = last X1 X2 W0 W3 W4 W5 W6 (β r) j := by
  rw [pay3_apply]
  have e8 : mat (k0_pay12 (F := Ideal) x8) = mat W6 := h8
  have er : row (k0_pay20 (F := Ideal) (k0_pay10 x6) (k0_pay11 x7) (k0_pay13 x0 x2) (k0_pay14 x1 x5)) r
      = narrow X1 X2 W0 W3 W4 W5 (β r) :=
    funext fun q => narrow_blk x0 x1 x2 x5 x6 x7 X1 X2 W0 W3 W4 W5 β h0 h1 h2 h5 h6 h7 r q
  rw [e8, er]
  rfl

/-- First accumulator after the block: what it held plus the block's rows' products of first input's first layer with
    the wide layer. -/
theorem accAWide_blk (h0 : ∀ r, row x0 r = row X1 (β r)) (h1 : ∀ r, row x1 r = row X2 (β r)) (h2 : mat x2 = mat W0)
    (h3 : mat x3 = mat W1) (h4 : mat x4 = mat W2) (h5 : mat x5 = mat W3) (acc : Vec Ideal S24x50 .f32) (a : Fin 24) (o : Fin 50) :
    k0_pay17 (F := Ideal) (k0_pay8 x3) (k0_pay9 x4) (k0_pay13 x0 x2) (k0_pay14 x1 x5) z50 acc (ix2 a o)
      = acc (ix2 a o) + ∑ r : Fin 8192, firstA X1 W0 (β r) a * wide X1 X2 W0 W3 W1 W2 (β r) o := by
  rw [pay17_apply]
  refine congrArg (acc (ix2 a o) + ·) (Finset.sum_congr rfl fun r _ => ?_)
  exact congrArg₂ (· * ·) (congrFun (firstA_blk x0 x2 X1 W0 β h0 h2 r) a)
    (wide_blk x0 x1 x2 x5 x3 x4 X1 X2 W0 W3 W1 W2 β h0 h1 h2 h3 h4 h5 r o)

/-- Second accumulator. -/
theorem accBWide_blk (h0 : ∀ r, row x0 r = row X1 (β r)) (h1 : ∀ r, row x1 r = row X2 (β r)) (h2 : mat x2 = mat W0)
    (h3 : mat x3 = mat W1) (h4 : mat x4 = mat W2) (h5 : mat x5 = mat W3) (acc : Vec Ideal S24x50 .f32) (a : Fin 24) (o : Fin 50) :
    k0_pay18 (F := Ideal) (k0_pay8 x3) (k0_pay9 x4) (k0_pay13 x0 x2) (k0_pay14 x1 x5) z50 acc (ix2 a o)
      = acc (ix2 a o) + ∑ r : Fin 8192, firstB X2 W3 (β r) a * wide X1 X2 W0 W3 W1 W2 (β r) o := by
  rw [pay18_apply]
  refine congrArg (acc (ix2 a o) + ·) (Finset.sum_congr rfl fun r _ => ?_)
  exact congrArg₂ (· * ·) (congrFun (firstB_blk x1 x5 X2 W3 β h1 h5 r) a)
    (wide_blk x0 x1 x2 x5 x3 x4 X1 X2 W0 W3 W1 W2 β h0 h1 h2 h3 h4 h5 r o)

/-- Third accumulator. -/
theorem accANarrow_blk (h0 : ∀ r, row x0 r = row X1 (β r)) (h1 : ∀ r, row x1 r = row X2 (β r)) (h2 : mat x2 = mat W0)
    (h5 : mat x5 = mat W3) (h6 : mat x6 = mat W4) (h7 : mat x7 = mat W5) (acc : Vec Ideal S24x10 .f32) (a : Fin 24) (o : Fin 10) :
    k0_pay1 (F := Ideal) (k0_pay21 (F := Ideal) (k0_pay10 x6) (k0_pay11 x7) (k0_pay13 x0 x2) (k0_pay14 x1 x5) acc) (ix2 a o)
      = acc (ix2 a o) + ∑ r : Fin 8192, firstA X1 W0 (β r) a * narrow X1 X2 W0 W3 W4 W5 (β r) o := by
  rw [pay21_apply]
  refine congrArg (acc (ix2 a o) + ·) (Finset.sum_congr rfl fun r _ => ?_)
  exact congrArg₂ (· * ·) (congrFun (firstA_blk x0 x2 X1 W0 β h0 h2 r) a)
    (narrow_blk x0 x1 x2 x5 x6 x7 X1 X2 W0 W3 W4 W5 β h0 h1 h2 h5 h6 h7 r o)

/-- Fourth accumulator. -/
theorem accBNarrow_blk (h0 : ∀ r, row x0 r = row X1 (β r)) (h1 : ∀ r, row x1 r = row X2 (β r)) (h2 : mat x2 = mat W0)
    (h5 : mat x5 = mat W3) (h6 : mat x6 = mat W4) (h7 : mat x7 = mat W5) (acc : Vec Ideal S24x10 .f32) (a : Fin 24) (o : Fin 10) :
    k0_pay2 (F := Ideal) (k0_pay14 x1 x5) (k0_pay20 (k0_pay10 x6) (k0_pay11 x7) (k0_pay13 x0 x2) (k0_pay14 x1 x5)) acc (ix2 a o)
      = acc (ix2 a o) + ∑ r : Fin 8192, firstB X2 W3 (β r) a * narrow X1 X2 W0 W3 W4 W5 (β r) o := by
  rw [pay2_apply]
  refine congrArg (acc (ix2 a o) + ·) (Finset.sum_congr rfl fun r _ => ?_)
  exact congrArg₂ (· * ·) (congrFun (firstB_blk x1 x5 X2 W3 β h1 h5 r) a)
    (narrow_blk x0 x1 x2 x5 x6 x7 X1 X2 W0 W3 W4 W5 β h0 h1 h2 h5 h6 h7 r o)

end Cert.KernelIdeal.Bridge

end
-- ==== Proof.BlockRead.lean ====
/-
  What the kernel's windows read and write, index by index.

  At grid point `t` the two input windows hold rows `8192·t … 8192·t + 8191` of the two input arrays, every weight
  window holds its whole matrix, and the three streamed output windows write rows `8192·t …` of their arrays; the four
  plasticity windows are their whole arrays.
-/
import proofs.«105392_j46213848105974_2_alg».proof.Proof.Gen.KernelIdeal.Frame.Runs
import proofs.«105392_j46213848105974_2_alg».proof.Proof.Spec

noncomputable section

namespace Cert.KernelIdeal.Blocks

open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ)

/-- The printed index maps, decided over the grid: the streamed windows' block row is the point, every other block
    index is zero. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

theorem idx_const : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-- Row `r` of the block at point `t` is row `8192·t + r` of the batch. -/
theorem batch_row_lt (t : Fin cfg0.N) (r : Fin 8192) : 8192 * t.val + r.val < 262144 := by
  have h1 : t.val < 32 := lt_of_lt_of_eq t.isLt N_0
  have h2 := r.isLt
  omega

/-- The batch row a block's row is. -/
def batchRow (t : Fin cfg0.N) (r : Fin 8192) : Fin 262144 := ⟨8192 * t.val + r.val, batch_row_lt t r⟩

/-- Input window 0's block at point `t`, row `r`: the batch row `8192·t + r` of its array. -/
theorem blk0_row (c : Dev nD) (t : Fin cfg0.N) (r : Fin 8192) :
    row (iblk m c 0 t : Vec Ideal S8192x24 .f32) r = row (m ((c : Thread nD τ).loc main_arg0)) (batchRow t r) := by
  funext k
  unfold row iblk
  rw [View.read_apply]
  show V m c main_arg0 _ = m (c.tc.loc main_arg0) _
  unfold V
  congr 1
  funext a
  apply Fin.ext
  match a with
  | ⟨0, _⟩ => show win0_0.index t (0 : Fin 2) * 8192 + 1 * r.val = 8192 * t.val + r.val; rw [((idx_facts t).1).1]; omega
  | ⟨1, _⟩ => show win0_0.index t (1 : Fin 2) * 24 + 1 * k.val = k.val; rw [((idx_facts t).1).2]; omega

/-- Input window 1's block at point `t`, row `r`: the batch row `8192·t + r` of its array. -/
theorem blk1_row (c : Dev nD) (t : Fin cfg0.N) (r : Fin 8192) :
    row (iblk m c 1 t : Vec Ideal S8192x24 .f32) r = row (m ((c : Thread nD τ).loc main_arg1)) (batchRow t r) := by
  funext k
  unfold row iblk
  rw [View.read_apply]
  show V m c main_arg1 _ = m (c.tc.loc main_arg1) _
  unfold V
  congr 1
  funext a
  apply Fin.ext
  match a with
  | ⟨0, _⟩ => show win0_1.index t (0 : Fin 2) * 8192 + 1 * r.val = 8192 * t.val + r.val; rw [((idx_facts t).2.1).1]; omega
  | ⟨1, _⟩ => show win0_1.index t (1 : Fin 2) * 24 + 1 * k.val = k.val; rw [((idx_facts t).2.1).2]; omega

/-- Weight window 2 holds its whole matrix at every point. -/
theorem blk2_mat (c : Dev nD) (t : Fin cfg0.N) :
    mat (iblk m c 2 t : Vec Ideal S24x24 .f32) = mat (m ((c : Thread nD τ).loc main_arg2)) := by
  funext p q
  unfold mat iblk
  rw [View.read_apply]
  show V m c main_arg2 _ = m (c.tc.loc main_arg2) _
  unfold V
  congr 1
  funext a
  apply Fin.ext
  match a with
  | ⟨0, _⟩ => show win0_2.index t (0 : Fin 2) * 24 + 1 * p.val = p.val; rw [((idx_const t).1).1]; omega
  | ⟨1, _⟩ => show win0_2.index t (1 : Fin 2) * 24 + 1 * q.val = q.val; rw [((idx_const t).1).2]; omega

/-- Weight window 3 holds its whole matrix at every point. -/
theorem blk3_mat (c : Dev nD) (t : Fin cfg0.N) :
    mat (iblk m c 3 t : Vec Ideal S24x50 .f32) = mat (m ((c : Thread nD τ).loc main_arg3)) := by
  funext p q
  unfold mat iblk
  rw [View.read_apply]
  show V m c main_arg3 _ = m (c.tc.loc main_arg3) _
  unfold V
  congr 1
  funext a
  apply Fin.ext
  match a with
  | ⟨0, _⟩ => show win0_3.index t (0 : Fin 2) * 24 + 1 * p.val = p.val; rw [((idx_const t).2.1).1]; omega
  | ⟨1, _⟩ => show win0_3.index t (1 : Fin 2) * 50 + 1 * q.val = q.val; rw [((idx_const t).2.1).2]; omega

/-- Weight window 4 holds its whole matrix at every point. -/
theorem blk4_mat (c : Dev nD) (t : Fin cfg0.N) :
    mat (iblk m c 4 t : Vec Ideal S24x50 .f32) = mat (m ((c : Thread nD τ).loc main_arg4)) := by
  funext p q
  unfold mat iblk
  rw [View.read_apply]
  show V m c main_arg4 _ = m (c.tc.loc main_arg4) _
  unfold V
  congr 1
  funext a
  apply Fin.ext
  match a with
  | ⟨0, _⟩ => show win0_4.index t (0 : Fin 2) * 24 + 1 * p.val = p.val; rw [((idx_const t).2.2.1).1]; omega
  | ⟨1, _⟩ => show win0_4.index t (1 : Fin 2) * 50 + 1 * q.val = q.val; rw [((idx_const t).2.2.1).2]; omega

/-- Weight window 5 holds its whole matrix at every point. -/
theorem blk5_mat (c : Dev nD) (t : Fin cfg0.N) :
    mat (iblk m c 5 t : Vec Ideal S24x24 .f32) = mat (m ((c : Thread nD τ).loc main_arg5)) := by
  funext p q
  unfold mat iblk
  rw [View.read_apply]
  show V m c main_arg5 _ = m (c.tc.loc main_arg5) _
  unfold V
  congr 1
  funext a
  apply Fin.ext
  match a with
  | ⟨0, _⟩ => show win0_5.index t (0 : Fin 2) * 24 + 1 * p.val = p.val; rw [((idx_const t).2.2.2.1).1]; omega
  | ⟨1, _⟩ => show win0_5.index t (1 : Fin 2) * 24 + 1 * q.val = q.val; rw [((idx_const t).2.2.2.1).2]; omega

/-- Weight window 6 holds its whole matrix at every point. -/
theorem blk6_mat (c : Dev nD) (t : Fin cfg0.N) :
    mat (iblk m c 6 t : Vec Ideal S24x10 .f32) = mat (m ((c : Thread nD τ).loc main_arg6)) := by
  funext p q
  unfold mat iblk
  rw [View.read_apply]
  show V m c main_arg6 _ = m (c.tc.loc main_arg6) _
  unfold V
  congr 1
  funext a
  apply Fin.ext
  match a with
  | ⟨0, _⟩ => show win0_6.index t (0 : Fin 2) * 24 + 1 * p.val = p.val; rw [((idx_const t).2.2.2.2.1).1]; omega
  | ⟨1, _⟩ => show win0_6.index t (1 : Fin 2) * 10 + 1 * q.val = q.val; rw [((idx_const t).2.2.2.2.1).2]; omega

/-- Weight window 7 holds its whole matrix at every point. -/
theorem blk7_mat (c : Dev nD) (t : Fin cfg0.N) :
    mat (iblk m c 7 t : Vec Ideal S24x10 .f32) = mat (m ((c : Thread nD τ).loc main_arg7)) := by
  funext p q
  unfold mat iblk
  rw [View.read_apply]
  show V m c main_arg7 _ = m (c.tc.loc main_arg7) _
  unfold V
  congr 1
  funext a
  apply Fin.ext
  match a with
  | ⟨0, _⟩ => show win0_7.index t (0 : Fin 2) * 24 + 1 * p.val = p.val; rw [((idx_const t).2.2.2.2.2.1).1]; omega
  | ⟨1, _⟩ => show win0_7.index t (1 : Fin 2) * 10 + 1 * q.val = q.val; rw [((idx_const t).2.2.2.2.2.1).2]; omega

/-- Weight window 8 holds its whole matrix at every point. -/
theorem blk8_mat (c : Dev nD) (t : Fin cfg0.N) :
    mat (iblk m c 8 t : Vec Ideal S10x10 .f32) = mat (m ((c : Thread nD τ).loc main_arg8)) := by
  funext p q
  unfold mat iblk
  rw [View.read_apply]
  show V m c main_arg8 _ = m (c.tc.loc main_arg8) _
  unfold V
  congr 1
  funext a
  apply Fin.ext
  match a with
  | ⟨0, _⟩ => show win0_8.index t (0 : Fin 2) * 10 + 1 * p.val = p.val; rw [((idx_const t).2.2.2.2.2.2.1).1]; omega
  | ⟨1, _⟩ => show win0_8.index t (1 : Fin 2) * 10 + 1 * q.val = q.val; rw [((idx_const t).2.2.2.2.2.2.1).2]; omega

/-- Streamed output window 9: position `(r, j)` of the block at point `t` is position `(8192·t + r, j)` of its array. -/
theorem emb9 (t : Fin cfg0.N) (r : Fin 8192) (j : Fin 50) :
    ((cfg0.win 9).blk t).view.emb (ix2 r j) = ix2 (batchRow t r) j := by
  funext a
  apply Fin.ext
  match a with
  | ⟨0, _⟩ => show win0_9.index t (0 : Fin 2) * 8192 + 1 * r.val = 8192 * t.val + r.val; rw [((idx_facts t).2.2.1).1]; omega
  | ⟨1, _⟩ => show win0_9.index t (1 : Fin 2) * 50 + 1 * j.val = j.val; rw [((idx_facts t).2.2.1).2]; omega

/-- Streamed output window 10: position `(r, j)` of the block at point `t` is position `(8192·t + r, j)` of its array. -/
theorem emb10 (t : Fin cfg0.N) (r : Fin 8192) (j : Fin 10) :
    ((cfg0.win 10).blk t).view.emb (ix2 r j) = ix2 (batchRow t r) j := by
  funext a
  apply Fin.ext
  match a with
  | ⟨0, _⟩ => show win0_10.index t (0 : Fin 2) * 8192 + 1 * r.val = 8192 * t.val + r.val; rw [((idx_facts t).2.2.2.1).1]; omega
  | ⟨1, _⟩ => show win0_10.index t (1 : Fin 2) * 10 + 1 * j.val = j.val; rw [((idx_facts t).2.2.2.1).2]; omega

/-- Streamed output window 11: position `(r, j)` of the block at point `t` is position `(8192·t + r, j)` of its array. -/
theorem emb11 (t : Fin cfg0.N) (r : Fin 8192) (j : Fin 10) :
    ((cfg0.win 11).blk t).view.emb (ix2 r j) = ix2 (batchRow t r) j := by
  funext a
  apply Fin.ext
  match a with
  | ⟨0, _⟩ => show win0_11.index t (0 : Fin 2) * 8192 + 1 * r.val = 8192 * t.val + r.val; rw [((idx_facts t).2.2.2.2).1]; omega
  | ⟨1, _⟩ => show win0_11.index t (1 : Fin 2) * 10 + 1 * j.val = j.val; rw [((idx_facts t).2.2.2.2).2]; omega

/-- Reading an array of window 9's shape through the block at point `t`. -/
theorem read9 (G : S262144x50.Idx → EReal) (t : Fin cfg0.N) (r : Fin 8192) (j : Fin 50) :
    ((cfg0.win 9).blk t).view.read (Elt Ideal) G (ix2 r j) = G (ix2 (batchRow t r) j) := by
  rw [View.read_apply]
  show G (((cfg0.win 9).blk t).view.emb (ix2 r j)) = _
  rw [emb9]

/-- Reading an array of window 10's shape through the block at point `t`. -/
theorem read10 (G : S262144x10.Idx → EReal) (t : Fin cfg0.N) (r : Fin 8192) (j : Fin 10) :
    ((cfg0.win 10).blk t).view.read (Elt Ideal) G (ix2 r j) = G (ix2 (batchRow t r) j) := by
  rw [View.read_apply]
  show G (((cfg0.win 10).blk t).view.emb (ix2 r j)) = _
  rw [emb10]

/-- Reading an array of window 11's shape through the block at point `t`. -/
theorem read11 (G : S262144x10.Idx → EReal) (t : Fin cfg0.N) (r : Fin 8192) (j : Fin 10) :
    ((cfg0.win 11).blk t).view.read (Elt Ideal) G (ix2 r j) = G (ix2 (batchRow t r) j) := by
  rw [View.read_apply]
  show G (((cfg0.win 11).blk t).view.emb (ix2 r j)) = _
  rw [emb11]

/-- Plasticity window 12's one block is its whole array. -/
theorem emb12 (t : Fin cfg0.N) (a : Fin 24) (o : Fin 50) :
    ((cfg0.win 12).blk t).view.emb (ix2 a o) = ix2 a o := by
  funext x
  apply Fin.ext
  match x with
  | ⟨0, _⟩ => show win0_12.index t (0 : Fin 2) * 24 + 1 * a.val = a.val; rw [((idx_const t).2.2.2.2.2.2.2.1).1]; omega
  | ⟨1, _⟩ => show win0_12.index t (1 : Fin 2) * 50 + 1 * o.val = o.val; rw [((idx_const t).2.2.2.2.2.2.2.1).2]; omega

theorem read12 (G : S24x50.Idx → EReal) (t : Fin cfg0.N) (a : Fin 24) (o : Fin 50) :
    ((cfg0.win 12).blk t).view.read (Elt Ideal) G (ix2 a o) = G (ix2 a o) := by
  rw [View.read_apply]
  show G (((cfg0.win 12).blk t).view.emb (ix2 a o)) = _
  rw [emb12]

/-- Plasticity window 13's one block is its whole array. -/
theorem emb13 (t : Fin cfg0.N) (a : Fin 24) (o : Fin 50) :
    ((cfg0.win 13).blk t).view.emb (ix2 a o) = ix2 a o := by
  funext x
  apply Fin.ext
  match x with
  | ⟨0, _⟩ => show win0_13.index t (0 : Fin 2) * 24 + 1 * a.val = a.val; rw [((idx_const t).2.2.2.2.2.2.2.2.1).1]; omega
  | ⟨1, _⟩ => show win0_13.index t (1 : Fin 2) * 50 + 1 * o.val = o.val; rw [((idx_const t).2.2.2.2.2.2.2.2.1).2]; omega

theorem read13 (G : S24x50.Idx → EReal) (t : Fin cfg0.N) (a : Fin 24) (o : Fin 50) :
    ((cfg0.win 13).blk t).view.read (Elt Ideal) G (ix2 a o) = G (ix2 a o) := by
  rw [View.read_apply]
  show G (((cfg0.win 13).blk t).view.emb (ix2 a o)) = _
  rw [emb13]

/-- Plasticity window 14's one block is its whole array. -/
theorem emb14 (t : Fin cfg0.N) (a : Fin 24) (o : Fin 10) :
    ((cfg0.win 14).blk t).view.emb (ix2 a o) = ix2 a o := by
  funext x
  apply Fin.ext
  match x with
  | ⟨0, _⟩ => show win0_14.index t (0 : Fin 2) * 24 + 1 * a.val = a.val; rw [((idx_const t).2.2.2.2.2.2.2.2.2.1).1]; omega
  | ⟨1, _⟩ => show win0_14.index t (1 : Fin 2) * 10 + 1 * o.val = o.val; rw [((idx_const t).2.2.2.2.2.2.2.2.2.1).2]; omega

theorem read14 (G : S24x10.Idx → EReal) (t : Fin cfg0.N) (a : Fin 24) (o : Fin 10) :
    ((cfg0.win 14).blk t).view.read (Elt Ideal) G (ix2 a o) = G (ix2 a o) := by
  rw [View.read_apply]
  show G (((cfg0.win 14).blk t).view.emb (ix2 a o)) = _
  rw [emb14]

/-- Plasticity window 15's one block is its whole array. -/
theorem emb15 (t : Fin cfg0.N) (a : Fin 24) (o : Fin 10) :
    ((cfg0.win 15).blk t).view.emb (ix2 a o) = ix2 a o := by
  funext x
  apply Fin.ext
  match x with
  | ⟨0, _⟩ => show win0_15.index t (0 : Fin 2) * 24 + 1 * a.val = a.val; rw [((idx_const t).2.2.2.2.2.2.2.2.2.2).1]; omega
  | ⟨1, _⟩ => show win0_15.index t (1 : Fin 2) * 10 + 1 * o.val = o.val; rw [((idx_const t).2.2.2.2.2.2.2.2.2.2).2]; omega

theorem read15 (G : S24x10.Idx → EReal) (t : Fin cfg0.N) (a : Fin 24) (o : Fin 10) :
    ((cfg0.win 15).blk t).view.read (Elt Ideal) G (ix2 a o) = G (ix2 a o) := by
  rw [View.read_apply]
  show G (((cfg0.win 15).blk t).view.emb (ix2 a o)) = _
  rw [emb15]

end Cert.KernelIdeal.Blocks

end
-- ==== Proof.Streams.lean ====
/-
  The three streamed results, block by block and whole.

  What grid point `t` writes back to each streamed result is the corresponding layer of batch rows
  `8192·t … 8192·t + 8191`; the 32 blocks tile each result array, so each ends holding its layer of the whole batch.
-/
import proofs.«105392_j46213848105974_2_alg».proof.Proof.ValueKI
import proofs.«105392_j46213848105974_2_alg».proof.Proof.Pieces
import proofs.«105392_j46213848105974_2_alg».proof.Proof.Bridge
import proofs.«105392_j46213848105974_2_alg».proof.Proof.BlockRead

noncomputable section

namespace Cert.KernelIdeal.Streams

open Cert.KernelIdeal Cert.KernelIdeal.Gen Cert.KernelIdeal.GenP Cert.KernelIdeal.ValueP Cert.KernelIdeal.Pieces Cert.KernelIdeal.Blocks Cert.KernelIdeal.Pay
open Idealize.ShloMosaic Idealize.ShloMosaic.TcCoe Idealize.ShloMosaic.ValueIdx Idealize.SL.Sem Cert.Spec
open Idealize.ShloMosaic.Pipeline (Dat)

variable (m : (ℓ : Loc nD τ sig) → Buf (Elt Ideal) ℓ)

/-! ## Streamed result 0 -/

/-- What point `t` writes back is block `t` of the layer's outputs over the whole batch. -/
theorem flushed9_eq (c : Dev nD) (t : Fin cfg0.N) :
    (dats m 0 c).flushed 9 t = ((cfg0.win 9).blk t).view.read (Elt Ideal) (wideArr (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4))) := by
  have hN : t.val < 32 := lt_of_lt_of_eq t.isLt N_0
  funext y
  obtain ⟨r, j, rfl⟩ : ∃ (r : Fin 8192) (j : Fin 50), y = ix2 r j := ⟨y 0, y 1, eq_ix2 y⟩
  rw [read9]
  show (dats m 0 c).flushed 9 t (ix2 r j) = wide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow t r) j
  by_cases h0 : t.val % 32 = 0
  · have h1 : ¬t.val % 32 = 31 := by omega
    rw [flushed9_A m c t h0 h1, out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)]
    exact Bridge.wide_blk (iblk m c 0 t) (iblk m c 1 t) (iblk m c 2 t) (iblk m c 5 t) (iblk m c 3 t) (iblk m c 4 t) (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow t) (blk0_row m c t) (blk1_row m c t) (blk2_mat m c t) (blk3_mat m c t) (blk4_mat m c t) (blk5_mat m c t) r j
  · by_cases h1 : t.val % 32 = 31
    · rw [flushed9_C m c t h0 h1, out_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2)]
      exact Bridge.wide_blk (iblk m c 0 t) (iblk m c 1 t) (iblk m c 2 t) (iblk m c 5 t) (iblk m c 3 t) (iblk m c 4 t) (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow t) (blk0_row m c t) (blk1_row m c t) (blk2_mat m c t) (blk3_mat m c t) (blk4_mat m c t) (blk5_mat m c t) r j
    · rw [flushed9_B m c t h0 h1, out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2)]
      exact Bridge.wide_blk (iblk m c 0 t) (iblk m c 1 t) (iblk m c 2 t) (iblk m c 5 t) (iblk m c 3 t) (iblk m c 4 t) (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow t) (blk0_row m c t) (blk1_row m c t) (blk2_mat m c t) (blk3_mat m c t) (blk4_mat m c t) (blk5_mat m c t) r j

/-- An index of the result array is in point `t`'s block iff each coordinate is in the block's range. -/
theorem mem_blk9 (t : Fin cfg0.N) (i : S262144x50.Idx) :
    i ∈ ((cfg0.win 9).blk t).view.set ↔ ∀ a : Fin 2, win0_9.index t a * S8192x50.size a ≤ (i a).val ∧ (i a).val < win0_9.index t a * S8192x50.size a + S8192x50.size a := by
  show i ∈ ((View.whole main_v0_0).slice (win0_9.rect t)).set ↔ _
  rw [View.set_slice_whole, Rect.mem_set_unit]
  exact Iff.rfl

/-- Every index of the result array is in the block of the point its row falls in. -/
theorem cover9 (i : S262144x50.Idx) :
    ∃ t : Fin cfg0.N, (cfg0.win 9).flush t = true ∧ i ∈ ((cfg0.win 9).blk t).view.set := by
  have hi0 : (i 0).val < 262144 := (i 0).isLt
  have hi1 : (i 1).val < 50 := (i 1).isLt
  obtain ⟨t, ht⟩ : ∃ t : Fin cfg0.N, t.val = (i 0).val / 8192 :=
    ⟨⟨(i 0).val / 8192, lt_of_lt_of_eq (by omega) N_0.symm⟩, rfl⟩
  refine ⟨t, flush0_9 t, ?_⟩
  rw [mem_blk9]
  obtain ⟨e0, e1⟩ := (idx_facts t).2.2.1
  intro a
  match a with
  | ⟨0, _⟩ => show win0_9.index t (0 : Fin 2) * 8192 ≤ (i 0).val ∧ (i 0).val < win0_9.index t (0 : Fin 2) * 8192 + 8192; rw [e0, ht]; omega
  | ⟨1, _⟩ => show win0_9.index t (1 : Fin 2) * 50 ≤ (i 1).val ∧ (i 1).val < win0_9.index t (1 : Fin 2) * 50 + 50; rw [e1]; omega

/-- So the result array ends holding the layer's outputs for the whole batch. -/
theorem final9 (c : Dev nD) : (dats m 0 c).arrAt 9 cfg0.N = (wideArr (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4))) :=
  (dats m 0 c).arrAt_eq_of_cover 9 (wideArr (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4))) (fun t _ => flushed9_eq m c t) cover9

/-! ## Streamed result 1 -/

/-- What point `t` writes back is block `t` of the layer's outputs over the whole batch. -/
theorem flushed10_eq (c : Dev nD) (t : Fin cfg0.N) :
    (dats m 0 c).flushed 10 t = ((cfg0.win 10).blk t).view.read (Elt Ideal) (narrowArr (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) := by
  have hN : t.val < 32 := lt_of_lt_of_eq t.isLt N_0
  funext y
  obtain ⟨r, j, rfl⟩ : ∃ (r : Fin 8192) (j : Fin 10), y = ix2 r j := ⟨y 0, y 1, eq_ix2 y⟩
  rw [read10]
  show (dats m 0 c).flushed 10 t (ix2 r j) = narrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow t r) j
  by_cases h0 : t.val % 32 = 0
  · have h1 : ¬t.val % 32 = 31 := by omega
    rw [flushed10_A m c t h0 h1, out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)]
    exact Bridge.narrow_blk (iblk m c 0 t) (iblk m c 1 t) (iblk m c 2 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow t) (blk0_row m c t) (blk1_row m c t) (blk2_mat m c t) (blk5_mat m c t) (blk6_mat m c t) (blk7_mat m c t) r j
  · by_cases h1 : t.val % 32 = 31
    · rw [flushed10_C m c t h0 h1, out_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2)]
      exact Bridge.narrow_blk (iblk m c 0 t) (iblk m c 1 t) (iblk m c 2 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow t) (blk0_row m c t) (blk1_row m c t) (blk2_mat m c t) (blk5_mat m c t) (blk6_mat m c t) (blk7_mat m c t) r j
    · rw [flushed10_B m c t h0 h1, out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2)]
      exact Bridge.narrow_blk (iblk m c 0 t) (iblk m c 1 t) (iblk m c 2 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow t) (blk0_row m c t) (blk1_row m c t) (blk2_mat m c t) (blk5_mat m c t) (blk6_mat m c t) (blk7_mat m c t) r j

/-- An index of the result array is in point `t`'s block iff each coordinate is in the block's range. -/
theorem mem_blk10 (t : Fin cfg0.N) (i : S262144x10.Idx) :
    i ∈ ((cfg0.win 10).blk t).view.set ↔ ∀ a : Fin 2, win0_10.index t a * S8192x10.size a ≤ (i a).val ∧ (i a).val < win0_10.index t a * S8192x10.size a + S8192x10.size a := by
  show i ∈ ((View.whole main_v0_1).slice (win0_10.rect t)).set ↔ _
  rw [View.set_slice_whole, Rect.mem_set_unit]
  exact Iff.rfl

/-- Every index of the result array is in the block of the point its row falls in. -/
theorem cover10 (i : S262144x10.Idx) :
    ∃ t : Fin cfg0.N, (cfg0.win 10).flush t = true ∧ i ∈ ((cfg0.win 10).blk t).view.set := by
  have hi0 : (i 0).val < 262144 := (i 0).isLt
  have hi1 : (i 1).val < 10 := (i 1).isLt
  obtain ⟨t, ht⟩ : ∃ t : Fin cfg0.N, t.val = (i 0).val / 8192 :=
    ⟨⟨(i 0).val / 8192, lt_of_lt_of_eq (by omega) N_0.symm⟩, rfl⟩
  refine ⟨t, flush0_10 t, ?_⟩
  rw [mem_blk10]
  obtain ⟨e0, e1⟩ := (idx_facts t).2.2.2.1
  intro a
  match a with
  | ⟨0, _⟩ => show win0_10.index t (0 : Fin 2) * 8192 ≤ (i 0).val ∧ (i 0).val < win0_10.index t (0 : Fin 2) * 8192 + 8192; rw [e0, ht]; omega
  | ⟨1, _⟩ => show win0_10.index t (1 : Fin 2) * 10 ≤ (i 1).val ∧ (i 1).val < win0_10.index t (1 : Fin 2) * 10 + 10; rw [e1]; omega

/-- So the result array ends holding the layer's outputs for the whole batch. -/
theorem final10 (c : Dev nD) : (dats m 0 c).arrAt 10 cfg0.N = (narrowArr (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) :=
  (dats m 0 c).arrAt_eq_of_cover 10 (narrowArr (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (fun t _ => flushed10_eq m c t) cover10

/-! ## Streamed result 2 -/

/-- What point `t` writes back is block `t` of the layer's outputs over the whole batch. -/
theorem flushed11_eq (c : Dev nD) (t : Fin cfg0.N) :
    (dats m 0 c).flushed 11 t = ((cfg0.win 11).blk t).view.read (Elt Ideal) (lastArr (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))) := by
  have hN : t.val < 32 := lt_of_lt_of_eq t.isLt N_0
  funext y
  obtain ⟨r, j, rfl⟩ : ∃ (r : Fin 8192) (j : Fin 10), y = ix2 r j := ⟨y 0, y 1, eq_ix2 y⟩
  rw [read11]
  show (dats m 0 c).flushed 11 t (ix2 r j) = last (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (batchRow t r) j
  by_cases h0 : t.val % 32 = 0
  · have h1 : ¬t.val % 32 = 31 := by omega
    rw [flushed11_A m c t h0 h1, out_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)]
    exact Bridge.last_blk (iblk m c 0 t) (iblk m c 1 t) (iblk m c 2 t) (iblk m c 5 t) (iblk m c 6 t) (iblk m c 7 t) (iblk m c 8 t) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (batchRow t) (blk0_row m c t) (blk1_row m c t) (blk2_mat m c t) (blk5_mat m c t) (blk6_mat m c t) (blk7_mat m c t) (blk8_mat m c t) r j
  · by_cases h1 : t.val % 32 = 31
    · rw [flushed11_C m c t h0 h1, out_C_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2)]
      exact Bridge.last_blk (iblk m c 0 t) (iblk m c 1 t) (iblk m c 2 t) (iblk m c 5 t) (iblk m c 6 t) (iblk m c 7 t) (iblk m c 8 t) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (batchRow t) (blk0_row m c t) (blk1_row m c t) (blk2_mat m c t) (blk5_mat m c t) (blk6_mat m c t) (blk7_mat m c t) (blk8_mat m c t) r j
    · rw [flushed11_B m c t h0 h1, out_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2)]
      exact Bridge.last_blk (iblk m c 0 t) (iblk m c 1 t) (iblk m c 2 t) (iblk m c 5 t) (iblk m c 6 t) (iblk m c 7 t) (iblk m c 8 t) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (batchRow t) (blk0_row m c t) (blk1_row m c t) (blk2_mat m c t) (blk5_mat m c t) (blk6_mat m c t) (blk7_mat m c t) (blk8_mat m c t) r j

/-- An index of the result array is in point `t`'s block iff each coordinate is in the block's range. -/
theorem mem_blk11 (t : Fin cfg0.N) (i : S262144x10.Idx) :
    i ∈ ((cfg0.win 11).blk t).view.set ↔ ∀ a : Fin 2, win0_11.index t a * S8192x10.size a ≤ (i a).val ∧ (i a).val < win0_11.index t a * S8192x10.size a + S8192x10.size a := by
  show i ∈ ((View.whole main_v0_2).slice (win0_11.rect t)).set ↔ _
  rw [View.set_slice_whole, Rect.mem_set_unit]
  exact Iff.rfl

/-- Every index of the result array is in the block of the point its row falls in. -/
theorem cover11 (i : S262144x10.Idx) :
    ∃ t : Fin cfg0.N, (cfg0.win 11).flush t = true ∧ i ∈ ((cfg0.win 11).blk t).view.set := by
  have hi0 : (i 0).val < 262144 := (i 0).isLt
  have hi1 : (i 1).val < 10 := (i 1).isLt
  obtain ⟨t, ht⟩ : ∃ t : Fin cfg0.N, t.val = (i 0).val / 8192 :=
    ⟨⟨(i 0).val / 8192, lt_of_lt_of_eq (by omega) N_0.symm⟩, rfl⟩
  refine ⟨t, flush0_11 t, ?_⟩
  rw [mem_blk11]
  obtain ⟨e0, e1⟩ := (idx_facts t).2.2.2.2
  intro a
  match a with
  | ⟨0, _⟩ => show win0_11.index t (0 : Fin 2) * 8192 ≤ (i 0).val ∧ (i 0).val < win0_11.index t (0 : Fin 2) * 8192 + 8192; rw [e0, ht]; omega
  | ⟨1, _⟩ => show win0_11.index t (1 : Fin 2) * 10 ≤ (i 1).val ∧ (i 1).val < win0_11.index t (1 : Fin 2) * 10 + 10; rw [e1]; omega

/-- So the result array ends holding the layer's outputs for the whole batch. -/
theorem final11 (c : Dev nD) : (dats m 0 c).arrAt 11 cfg0.N = (lastArr (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))) :=
  (dats m 0 c).arrAt_eq_of_cover 11 (lastArr (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8))) (fun t _ => flushed11_eq m c t) cover11

end Cert.KernelIdeal.Streams

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.SumBlocks.lean ====
/-
  The batch as thirty-two blocks of 8192 rows.

  A sum over the 262144 batch rows is the sum, over the 32 grid points, of the sums over the 8192 rows of a block, the
  row `r` of block `t` being batch row `8192·t + r`; an accumulator that starts from zero and receives one block's sum
  per point therefore ends at the sum over the batch. Only commutativity and associativity of the addition are used.
-/
import proofs.«105392_j46213848105974_2_alg».proof.Proof.LibBlockSum
import Mathlib.Data.EReal.Basic

namespace Cert.SumBlocks

theorem batch_index_lt (n : ℕ) (h : n < 32) (r : Fin 8192) : 8192 * n + r.val < 262144 := by
  have := r.isLt
  omega

/-- Zero plus the block sums of the 32 points, listed by natural numbers, is the sum over the batch. -/
theorem zero_add_blocks_eq_batch {M' : Type*} [AddCommMonoid M'] (g : Fin 262144 → M') (M : ℕ → M')
    (hM : ∀ (n : ℕ) (h : n < 32), M n = ∑ r : Fin 8192, g ⟨8192 * n + r.val, batch_index_lt n h r⟩) :
    (0 : M') + ∑ s ∈ Finset.range (31 + 1), M (0 + s) = ∑ b : Fin 262144, g b := by
  rw [zero_add, Finset.sum_range, Cert.Lib.BlockSum.sum_eq_sum_blocks 32 8192 rfl g]
  refine Finset.sum_congr rfl fun t _ => ?_
  rw [Nat.zero_add]
  exact hM t.val t.isLt

end Cert.SumBlocks
-- ==== Proof.Accum.lean ====
/-
  The four plasticity results: each accumulator's run over the grid, and the result array it ends in.

  An accumulator is zeroed at the first grid point and receives at every point the sum, over the point's 8192 batch
  rows, of the products of two layers' outputs; after the last point it is copied out whole. So it ends at zero plus
  the 32 block sums, which is the sum over the whole batch (addition of extended reals is commutative and associative).
-/
import proofs.«105392_j46213848105974_2_alg».proof.Proof.ValueKI
import proofs.«105392_j46213848105974_2_alg».proof.Proof.Pieces
import proofs.«105392_j46213848105974_2_alg».proof.Proof.Bridge
import proofs.«105392_j46213848105974_2_alg».proof.Proof.BlockRead
import proofs.«105392_j46213848105974_2_alg».proof.Proof.SumBlocks

noncomputable section

namespace Cert.KernelIdeal.Accum

open Cert.KernelIdeal Cert.KernelIdeal.Gen Cert.KernelIdeal.GenP Cert.KernelIdeal.ValueP Cert.KernelIdeal.Pieces Cert.KernelIdeal.Blocks Cert.KernelIdeal.Pay
open Idealize.ShloMosaic Idealize.ShloMosaic.TcCoe Idealize.ShloMosaic.ValueIdx Idealize.SL.Sem Cert.Spec
open Idealize.ShloMosaic.Pipeline (Dat)

variable (m : (ℓ : Loc nD τ sig) → Buf (Elt Ideal) ℓ)

/-! ## Accumulator 0 and plasticity result 0 -/

/-- Point `n`'s addend at `(a, o)`: the sum over the point's batch rows of the two layers' product (zero past the grid). -/
def addend0 (c : Dev nD) (n : ℕ) (i : S24x50.Idx) : EReal :=
  if h : n < cfg0.N then ∑ r : Fin 8192, firstA (m ((c : Thread nD τ).loc main_arg0)) (m ((c : Thread nD τ).loc main_arg2)) (batchRow (⟨n, h⟩ : Fin cfg0.N) r) (i 0) * wide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow (⟨n, h⟩ : Fin cfg0.N) r) (i 1) else 0

/-- The first point leaves zero plus its addend. -/
theorem first0 (c : Dev nD) (h : 0 < cfg0.N) (i : S24x50.Idx) :
    scAt0_0 m c 0 h (VS0_0.read (Elt Ideal) VS0_0.junk) i = (0 : EReal) + addend0 m c 0 i := by
  obtain ⟨a, o, rfl⟩ : ∃ (a : Fin 24) (o : Fin 50), i = ix2 a o := ⟨i 0, i 1, eq_ix2 i⟩
  have hz0 : 0 % 32 = 0 := Nat.zero_mod 32
  have hn31 : ¬0 % 32 = 31 := by decide
  unfold scAt0_0
  rw [dif_pos hz0, dif_neg hn31]
  rw [sout_A_0 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) scM0_0 (Memref.isWhole_whole _) scM0_1 (Memref.isWhole_whole _) scM0_2 (Memref.isWhole_whole _) scM0_3 (Memref.isWhole_whole _) ((hcond0_0 (⟨0, h⟩ : Fin cfg0.N)).mpr hz0) (fun hh => hn31 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N))]
  rw [Bridge.accAWide_blk (iblk m c 0 (⟨0, h⟩ : Fin cfg0.N)) (iblk m c 1 (⟨0, h⟩ : Fin cfg0.N)) (iblk m c 2 (⟨0, h⟩ : Fin cfg0.N)) (iblk m c 5 (⟨0, h⟩ : Fin cfg0.N)) (iblk m c 3 (⟨0, h⟩ : Fin cfg0.N)) (iblk m c 4 (⟨0, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow (⟨0, h⟩ : Fin cfg0.N)) (blk0_row m c (⟨0, h⟩ : Fin cfg0.N)) (blk1_row m c (⟨0, h⟩ : Fin cfg0.N)) (blk2_mat m c (⟨0, h⟩ : Fin cfg0.N)) (blk3_mat m c (⟨0, h⟩ : Fin cfg0.N)) (blk4_mat m c (⟨0, h⟩ : Fin cfg0.N)) (blk5_mat m c (⟨0, h⟩ : Fin cfg0.N)) (k0_pay4 (F := Ideal)) a o, pay4_apply]
  unfold addend0
  rw [dif_pos h]

/-- Every later point adds its addend to what the point before left. -/
theorem step0 (c : Dev nD) (n : ℕ) (h : n < cfg0.N) (acc : Vec Ideal S24x50 .f32) (i : S24x50.Idx) (hpos : 0 < n) :
    scAt0_0 m c n h acc i = acc i + addend0 m c n i := by
  have hN : n < 32 := lt_of_lt_of_eq h N_0
  obtain ⟨a, o, rfl⟩ : ∃ (a : Fin 24) (o : Fin 50), i = ix2 a o := ⟨i 0, i 1, eq_ix2 i⟩
  have h0 : ¬n % 32 = 0 := by omega
  unfold scAt0_0
  rw [dif_neg h0]
  by_cases h1 : n % 32 = 31
  · rw [dif_pos h1]
    rw [sout_C_0 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) acc ((outsAt0 m c ((⟨n, h⟩ : Fin cfg0.N).val - 1) (Nat.lt_of_le_of_lt (Nat.sub_le _ _) (⟨n, h⟩ : Fin cfg0.N).isLt)).2.2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.2.2)]
    rw [Bridge.accAWide_blk (iblk m c 0 (⟨n, h⟩ : Fin cfg0.N)) (iblk m c 1 (⟨n, h⟩ : Fin cfg0.N)) (iblk m c 2 (⟨n, h⟩ : Fin cfg0.N)) (iblk m c 5 (⟨n, h⟩ : Fin cfg0.N)) (iblk m c 3 (⟨n, h⟩ : Fin cfg0.N)) (iblk m c 4 (⟨n, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow (⟨n, h⟩ : Fin cfg0.N)) (blk0_row m c (⟨n, h⟩ : Fin cfg0.N)) (blk1_row m c (⟨n, h⟩ : Fin cfg0.N)) (blk2_mat m c (⟨n, h⟩ : Fin cfg0.N)) (blk3_mat m c (⟨n, h⟩ : Fin cfg0.N)) (blk4_mat m c (⟨n, h⟩ : Fin cfg0.N)) (blk5_mat m c (⟨n, h⟩ : Fin cfg0.N)) acc a o]
    unfold addend0
    rw [dif_pos h]
  · rw [dif_neg h1]
    rw [sout_B_0 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) acc ((outsAt0 m c ((⟨n, h⟩ : Fin cfg0.N).val - 1) (Nat.lt_of_le_of_lt (Nat.sub_le _ _) (⟨n, h⟩ : Fin cfg0.N).isLt)).2.2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.2.2)]
    rw [Bridge.accAWide_blk (iblk m c 0 (⟨n, h⟩ : Fin cfg0.N)) (iblk m c 1 (⟨n, h⟩ : Fin cfg0.N)) (iblk m c 2 (⟨n, h⟩ : Fin cfg0.N)) (iblk m c 5 (⟨n, h⟩ : Fin cfg0.N)) (iblk m c 3 (⟨n, h⟩ : Fin cfg0.N)) (iblk m c 4 (⟨n, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow (⟨n, h⟩ : Fin cfg0.N)) (blk0_row m c (⟨n, h⟩ : Fin cfg0.N)) (blk1_row m c (⟨n, h⟩ : Fin cfg0.N)) (blk2_mat m c (⟨n, h⟩ : Fin cfg0.N)) (blk3_mat m c (⟨n, h⟩ : Fin cfg0.N)) (blk4_mat m c (⟨n, h⟩ : Fin cfg0.N)) (blk5_mat m c (⟨n, h⟩ : Fin cfg0.N)) acc a o]
    unfold addend0
    rw [dif_pos h]

/-- The accumulator after point `n`: zero plus the addends of points `0 … n`. -/
theorem scratch0_eq (c : Dev nD) (n : ℕ) (hn : n < cfg0.N) (i : S24x50.Idx) :
    (outsAt0 m c n hn).2.2.2.2.2.2.2.1 i = (0 : EReal) + ∑ s ∈ Finset.range (n + 1), addend0 m c (0 + s) i := by
  have hN : n < 32 := lt_of_lt_of_eq hn N_0
  rw [soutsAt0_0_sweep m c n hn]
  exact Pipeline.accAt_add_apply (ι := S24x50.Idx) (β := EReal)
    (fun n h => scAt0_0 m c n h (VS0_0.read (Elt Ideal) VS0_0.junk)) (scAt0_0 m c) (fun _ => 0) (addend0 m c) 0 31
    (fun h i => first0 m c h i) (fun n h acc i hb _ => step0 m c n h acc i hb) n (by omega) _ i

/-- At the last point the result buffer receives the accumulator as that point leaves it. -/
theorem out12_eq_scratch (c : Dev nD) (t : Fin cfg0.N) (h1 : t.val % 32 = 31) :
    (outsAt0 m c t.val t.isLt).2.2.2.1 = (outsAt0 m c t.val t.isLt).2.2.2.2.2.2.2.1 := by
  have h0 : ¬t.val % 32 = 0 := by omega
  rw [outsAt0_C m c t h0 h1]
  dsimp only
  rw [out_C_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2),
    sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2)]

/-- What the one write-back writes is the sum over the whole batch. -/
theorem flushed12_eq (c : Dev nD) (t : Fin cfg0.N) (hf : (cfg0.win 12).flush t = true) :
    (dats m 0 c).flushed 12 t = ((cfg0.win 12).blk t).view.read (Elt Ideal) (corrAWide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4))) := by
  have h1 : t.val % 32 = 31 := (flush0_12 t).mp hf
  have hN : t.val < 32 := lt_of_lt_of_eq t.isLt N_0
  have ht : t.val = 31 := by omega
  funext y
  obtain ⟨a, o, rfl⟩ : ∃ (a : Fin 24) (o : Fin 50), y = ix2 a o := ⟨y 0, y 1, eq_ix2 y⟩
  rw [read12, flushed12]
  show (outsAt0 m c t.val t.isLt).2.2.2.1 (ix2 a o) = _
  rw [out12_eq_scratch m c t h1, scratch0_eq, ht]
  refine (Cert.SumBlocks.zero_add_blocks_eq_batch
    (fun b => firstA (m ((c : Thread nD τ).loc main_arg0)) (m ((c : Thread nD τ).loc main_arg2)) b a * wide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) b o) (fun n => addend0 m c n (ix2 a o)) (fun n h => ?_)).trans rfl
  have h' : n < cfg0.N := lt_of_lt_of_eq h N_0.symm
  unfold addend0
  rw [dif_pos h']
  rfl

/-- An index of the result array is in the one block iff each coordinate is in range. -/
theorem mem_blk12 (t : Fin cfg0.N) (i : S24x50.Idx) :
    i ∈ ((cfg0.win 12).blk t).view.set ↔ ∀ a : Fin 2, win0_12.index t a * S24x50.size a ≤ (i a).val ∧ (i a).val < win0_12.index t a * S24x50.size a + S24x50.size a := by
  show i ∈ ((View.whole main_v0_3).slice (win0_12.rect t)).set ↔ _
  rw [View.set_slice_whole, Rect.mem_set_unit]
  exact Iff.rfl

/-- The last point's block covers the whole result array. -/
theorem cover12 (i : S24x50.Idx) :
    ∃ t : Fin cfg0.N, (cfg0.win 12).flush t = true ∧ i ∈ ((cfg0.win 12).blk t).view.set := by
  have hi0 : (i 0).val < 24 := (i 0).isLt
  have hi1 : (i 1).val < 50 := (i 1).isLt
  obtain ⟨t, ht⟩ : ∃ t : Fin cfg0.N, t.val = 31 := ⟨⟨31, lt_of_lt_of_eq (by decide) N_0.symm⟩, rfl⟩
  refine ⟨t, (flush0_12 t).mpr (by rw [ht]), ?_⟩
  rw [mem_blk12]
  obtain ⟨e0, e1⟩ := (idx_const t).2.2.2.2.2.2.2.1
  intro a
  match a with
  | ⟨0, _⟩ => show win0_12.index t (0 : Fin 2) * 24 ≤ (i 0).val ∧ (i 0).val < win0_12.index t (0 : Fin 2) * 24 + 24; rw [e0]; omega
  | ⟨1, _⟩ => show win0_12.index t (1 : Fin 2) * 50 ≤ (i 1).val ∧ (i 1).val < win0_12.index t (1 : Fin 2) * 50 + 50; rw [e1]; omega

/-- So the result array ends holding the sum over the batch. -/
theorem final12 (c : Dev nD) : (dats m 0 c).arrAt 12 cfg0.N = (corrAWide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4))) :=
  (dats m 0 c).arrAt_eq_of_cover 12 (corrAWide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4))) (fun t hf => flushed12_eq m c t hf) cover12

/-! ## Accumulator 1 and plasticity result 1 -/

/-- Point `n`'s addend at `(a, o)`: the sum over the point's batch rows of the two layers' product (zero past the grid). -/
def addend1 (c : Dev nD) (n : ℕ) (i : S24x50.Idx) : EReal :=
  if h : n < cfg0.N then ∑ r : Fin 8192, firstB (m ((c : Thread nD τ).loc main_arg1)) (m ((c : Thread nD τ).loc main_arg5)) (batchRow (⟨n, h⟩ : Fin cfg0.N) r) (i 0) * wide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow (⟨n, h⟩ : Fin cfg0.N) r) (i 1) else 0

/-- The first point leaves zero plus its addend. -/
theorem first1 (c : Dev nD) (h : 0 < cfg0.N) (i : S24x50.Idx) :
    scAt0_1 m c 0 h (VS0_1.read (Elt Ideal) VS0_1.junk) i = (0 : EReal) + addend1 m c 0 i := by
  obtain ⟨a, o, rfl⟩ : ∃ (a : Fin 24) (o : Fin 50), i = ix2 a o := ⟨i 0, i 1, eq_ix2 i⟩
  have hz0 : 0 % 32 = 0 := Nat.zero_mod 32
  have hn31 : ¬0 % 32 = 31 := by decide
  unfold scAt0_1
  rw [dif_pos hz0, dif_neg hn31]
  rw [sout_A_1 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) scM0_0 (Memref.isWhole_whole _) scM0_1 (Memref.isWhole_whole _) scM0_2 (Memref.isWhole_whole _) scM0_3 (Memref.isWhole_whole _) ((hcond0_0 (⟨0, h⟩ : Fin cfg0.N)).mpr hz0) (fun hh => hn31 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N))]
  rw [Bridge.accBWide_blk (iblk m c 0 (⟨0, h⟩ : Fin cfg0.N)) (iblk m c 1 (⟨0, h⟩ : Fin cfg0.N)) (iblk m c 2 (⟨0, h⟩ : Fin cfg0.N)) (iblk m c 5 (⟨0, h⟩ : Fin cfg0.N)) (iblk m c 3 (⟨0, h⟩ : Fin cfg0.N)) (iblk m c 4 (⟨0, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow (⟨0, h⟩ : Fin cfg0.N)) (blk0_row m c (⟨0, h⟩ : Fin cfg0.N)) (blk1_row m c (⟨0, h⟩ : Fin cfg0.N)) (blk2_mat m c (⟨0, h⟩ : Fin cfg0.N)) (blk3_mat m c (⟨0, h⟩ : Fin cfg0.N)) (blk4_mat m c (⟨0, h⟩ : Fin cfg0.N)) (blk5_mat m c (⟨0, h⟩ : Fin cfg0.N)) (k0_pay5 (F := Ideal)) a o, pay5_apply]
  unfold addend1
  rw [dif_pos h]

/-- Every later point adds its addend to what the point before left. -/
theorem step1 (c : Dev nD) (n : ℕ) (h : n < cfg0.N) (acc : Vec Ideal S24x50 .f32) (i : S24x50.Idx) (hpos : 0 < n) :
    scAt0_1 m c n h acc i = acc i + addend1 m c n i := by
  have hN : n < 32 := lt_of_lt_of_eq h N_0
  obtain ⟨a, o, rfl⟩ : ∃ (a : Fin 24) (o : Fin 50), i = ix2 a o := ⟨i 0, i 1, eq_ix2 i⟩
  have h0 : ¬n % 32 = 0 := by omega
  unfold scAt0_1
  rw [dif_neg h0]
  by_cases h1 : n % 32 = 31
  · rw [dif_pos h1]
    rw [sout_C_1 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) ((outsAt0 m c ((⟨n, h⟩ : Fin cfg0.N).val - 1) (Nat.lt_of_le_of_lt (Nat.sub_le _ _) (⟨n, h⟩ : Fin cfg0.N).isLt)).2.2.2.2.2.2.2.1) acc ((outsAt0 m c ((⟨n, h⟩ : Fin cfg0.N).val - 1) (Nat.lt_of_le_of_lt (Nat.sub_le _ _) (⟨n, h⟩ : Fin cfg0.N).isLt)).2.2.2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.2.2)]
    rw [Bridge.accBWide_blk (iblk m c 0 (⟨n, h⟩ : Fin cfg0.N)) (iblk m c 1 (⟨n, h⟩ : Fin cfg0.N)) (iblk m c 2 (⟨n, h⟩ : Fin cfg0.N)) (iblk m c 5 (⟨n, h⟩ : Fin cfg0.N)) (iblk m c 3 (⟨n, h⟩ : Fin cfg0.N)) (iblk m c 4 (⟨n, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow (⟨n, h⟩ : Fin cfg0.N)) (blk0_row m c (⟨n, h⟩ : Fin cfg0.N)) (blk1_row m c (⟨n, h⟩ : Fin cfg0.N)) (blk2_mat m c (⟨n, h⟩ : Fin cfg0.N)) (blk3_mat m c (⟨n, h⟩ : Fin cfg0.N)) (blk4_mat m c (⟨n, h⟩ : Fin cfg0.N)) (blk5_mat m c (⟨n, h⟩ : Fin cfg0.N)) acc a o]
    unfold addend1
    rw [dif_pos h]
  · rw [dif_neg h1]
    rw [sout_B_1 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) ((outsAt0 m c ((⟨n, h⟩ : Fin cfg0.N).val - 1) (Nat.lt_of_le_of_lt (Nat.sub_le _ _) (⟨n, h⟩ : Fin cfg0.N).isLt)).2.2.2.2.2.2.2.1) acc ((outsAt0 m c ((⟨n, h⟩ : Fin cfg0.N).val - 1) (Nat.lt_of_le_of_lt (Nat.sub_le _ _) (⟨n, h⟩ : Fin cfg0.N).isLt)).2.2.2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.2.2)]
    rw [Bridge.accBWide_blk (iblk m c 0 (⟨n, h⟩ : Fin cfg0.N)) (iblk m c 1 (⟨n, h⟩ : Fin cfg0.N)) (iblk m c 2 (⟨n, h⟩ : Fin cfg0.N)) (iblk m c 5 (⟨n, h⟩ : Fin cfg0.N)) (iblk m c 3 (⟨n, h⟩ : Fin cfg0.N)) (iblk m c 4 (⟨n, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) (batchRow (⟨n, h⟩ : Fin cfg0.N)) (blk0_row m c (⟨n, h⟩ : Fin cfg0.N)) (blk1_row m c (⟨n, h⟩ : Fin cfg0.N)) (blk2_mat m c (⟨n, h⟩ : Fin cfg0.N)) (blk3_mat m c (⟨n, h⟩ : Fin cfg0.N)) (blk4_mat m c (⟨n, h⟩ : Fin cfg0.N)) (blk5_mat m c (⟨n, h⟩ : Fin cfg0.N)) acc a o]
    unfold addend1
    rw [dif_pos h]

/-- The accumulator after point `n`: zero plus the addends of points `0 … n`. -/
theorem scratch1_eq (c : Dev nD) (n : ℕ) (hn : n < cfg0.N) (i : S24x50.Idx) :
    (outsAt0 m c n hn).2.2.2.2.2.2.2.2.1 i = (0 : EReal) + ∑ s ∈ Finset.range (n + 1), addend1 m c (0 + s) i := by
  have hN : n < 32 := lt_of_lt_of_eq hn N_0
  rw [soutsAt0_1_sweep m c n hn]
  exact Pipeline.accAt_add_apply (ι := S24x50.Idx) (β := EReal)
    (fun n h => scAt0_1 m c n h (VS0_1.read (Elt Ideal) VS0_1.junk)) (scAt0_1 m c) (fun _ => 0) (addend1 m c) 0 31
    (fun h i => first1 m c h i) (fun n h acc i hb _ => step1 m c n h acc i hb) n (by omega) _ i

/-- At the last point the result buffer receives the accumulator as that point leaves it. -/
theorem out13_eq_scratch (c : Dev nD) (t : Fin cfg0.N) (h1 : t.val % 32 = 31) :
    (outsAt0 m c t.val t.isLt).2.2.2.2.1 = (outsAt0 m c t.val t.isLt).2.2.2.2.2.2.2.2.1 := by
  have h0 : ¬t.val % 32 = 0 := by omega
  rw [outsAt0_C m c t h0 h1]
  dsimp only
  rw [out_C_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2),
    sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2)]

/-- What the one write-back writes is the sum over the whole batch. -/
theorem flushed13_eq (c : Dev nD) (t : Fin cfg0.N) (hf : (cfg0.win 13).flush t = true) :
    (dats m 0 c).flushed 13 t = ((cfg0.win 13).blk t).view.read (Elt Ideal) (corrBWide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4))) := by
  have h1 : t.val % 32 = 31 := (flush0_13 t).mp hf
  have hN : t.val < 32 := lt_of_lt_of_eq t.isLt N_0
  have ht : t.val = 31 := by omega
  funext y
  obtain ⟨a, o, rfl⟩ : ∃ (a : Fin 24) (o : Fin 50), y = ix2 a o := ⟨y 0, y 1, eq_ix2 y⟩
  rw [read13, flushed13]
  show (outsAt0 m c t.val t.isLt).2.2.2.2.1 (ix2 a o) = _
  rw [out13_eq_scratch m c t h1, scratch1_eq, ht]
  refine (Cert.SumBlocks.zero_add_blocks_eq_batch
    (fun b => firstB (m ((c : Thread nD τ).loc main_arg1)) (m ((c : Thread nD τ).loc main_arg5)) b a * wide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)) b o) (fun n => addend1 m c n (ix2 a o)) (fun n h => ?_)).trans rfl
  have h' : n < cfg0.N := lt_of_lt_of_eq h N_0.symm
  unfold addend1
  rw [dif_pos h']
  rfl

/-- An index of the result array is in the one block iff each coordinate is in range. -/
theorem mem_blk13 (t : Fin cfg0.N) (i : S24x50.Idx) :
    i ∈ ((cfg0.win 13).blk t).view.set ↔ ∀ a : Fin 2, win0_13.index t a * S24x50.size a ≤ (i a).val ∧ (i a).val < win0_13.index t a * S24x50.size a + S24x50.size a := by
  show i ∈ ((View.whole main_v0_4).slice (win0_13.rect t)).set ↔ _
  rw [View.set_slice_whole, Rect.mem_set_unit]
  exact Iff.rfl

/-- The last point's block covers the whole result array. -/
theorem cover13 (i : S24x50.Idx) :
    ∃ t : Fin cfg0.N, (cfg0.win 13).flush t = true ∧ i ∈ ((cfg0.win 13).blk t).view.set := by
  have hi0 : (i 0).val < 24 := (i 0).isLt
  have hi1 : (i 1).val < 50 := (i 1).isLt
  obtain ⟨t, ht⟩ : ∃ t : Fin cfg0.N, t.val = 31 := ⟨⟨31, lt_of_lt_of_eq (by decide) N_0.symm⟩, rfl⟩
  refine ⟨t, (flush0_13 t).mpr (by rw [ht]), ?_⟩
  rw [mem_blk13]
  obtain ⟨e0, e1⟩ := (idx_const t).2.2.2.2.2.2.2.2.1
  intro a
  match a with
  | ⟨0, _⟩ => show win0_13.index t (0 : Fin 2) * 24 ≤ (i 0).val ∧ (i 0).val < win0_13.index t (0 : Fin 2) * 24 + 24; rw [e0]; omega
  | ⟨1, _⟩ => show win0_13.index t (1 : Fin 2) * 50 ≤ (i 1).val ∧ (i 1).val < win0_13.index t (1 : Fin 2) * 50 + 50; rw [e1]; omega

/-- So the result array ends holding the sum over the batch. -/
theorem final13 (c : Dev nD) : (dats m 0 c).arrAt 13 cfg0.N = (corrBWide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4))) :=
  (dats m 0 c).arrAt_eq_of_cover 13 (corrBWide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4))) (fun t hf => flushed13_eq m c t hf) cover13

/-! ## Accumulator 2 and plasticity result 2 -/

/-- Point `n`'s addend at `(a, o)`: the sum over the point's batch rows of the two layers' product (zero past the grid). -/
def addend2 (c : Dev nD) (n : ℕ) (i : S24x10.Idx) : EReal :=
  if h : n < cfg0.N then ∑ r : Fin 8192, firstA (m ((c : Thread nD τ).loc main_arg0)) (m ((c : Thread nD τ).loc main_arg2)) (batchRow (⟨n, h⟩ : Fin cfg0.N) r) (i 0) * narrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow (⟨n, h⟩ : Fin cfg0.N) r) (i 1) else 0

/-- The first point leaves zero plus its addend. -/
theorem first2 (c : Dev nD) (h : 0 < cfg0.N) (i : S24x10.Idx) :
    scAt0_2 m c 0 h (VS0_2.read (Elt Ideal) VS0_2.junk) i = (0 : EReal) + addend2 m c 0 i := by
  obtain ⟨a, o, rfl⟩ : ∃ (a : Fin 24) (o : Fin 10), i = ix2 a o := ⟨i 0, i 1, eq_ix2 i⟩
  have hz0 : 0 % 32 = 0 := Nat.zero_mod 32
  have hn31 : ¬0 % 32 = 31 := by decide
  unfold scAt0_2
  rw [dif_pos hz0, dif_neg hn31]
  rw [sout_A_2 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) scM0_0 (Memref.isWhole_whole _) scM0_1 (Memref.isWhole_whole _) scM0_2 (Memref.isWhole_whole _) scM0_3 (Memref.isWhole_whole _) ((hcond0_0 (⟨0, h⟩ : Fin cfg0.N)).mpr hz0) (fun hh => hn31 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N))]
  rw [Bridge.accANarrow_blk (iblk m c 0 (⟨0, h⟩ : Fin cfg0.N)) (iblk m c 1 (⟨0, h⟩ : Fin cfg0.N)) (iblk m c 2 (⟨0, h⟩ : Fin cfg0.N)) (iblk m c 5 (⟨0, h⟩ : Fin cfg0.N)) (iblk m c 6 (⟨0, h⟩ : Fin cfg0.N)) (iblk m c 7 (⟨0, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow (⟨0, h⟩ : Fin cfg0.N)) (blk0_row m c (⟨0, h⟩ : Fin cfg0.N)) (blk1_row m c (⟨0, h⟩ : Fin cfg0.N)) (blk2_mat m c (⟨0, h⟩ : Fin cfg0.N)) (blk5_mat m c (⟨0, h⟩ : Fin cfg0.N)) (blk6_mat m c (⟨0, h⟩ : Fin cfg0.N)) (blk7_mat m c (⟨0, h⟩ : Fin cfg0.N)) (k0_pay6 (F := Ideal)) a o, pay6_apply]
  unfold addend2
  rw [dif_pos h]

/-- Every later point adds its addend to what the point before left. -/
theorem step2 (c : Dev nD) (n : ℕ) (h : n < cfg0.N) (acc : Vec Ideal S24x10 .f32) (i : S24x10.Idx) (hpos : 0 < n) :
    scAt0_2 m c n h acc i = acc i + addend2 m c n i := by
  have hN : n < 32 := lt_of_lt_of_eq h N_0
  obtain ⟨a, o, rfl⟩ : ∃ (a : Fin 24) (o : Fin 10), i = ix2 a o := ⟨i 0, i 1, eq_ix2 i⟩
  have h0 : ¬n % 32 = 0 := by omega
  unfold scAt0_2
  rw [dif_neg h0]
  by_cases h1 : n % 32 = 31
  · rw [dif_pos h1]
    rw [sout_C_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) ((outsAt0 m c ((⟨n, h⟩ : Fin cfg0.N).val - 1) (Nat.lt_of_le_of_lt (Nat.sub_le _ _) (⟨n, h⟩ : Fin cfg0.N).isLt)).2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.1) acc ((outsAt0 m c ((⟨n, h⟩ : Fin cfg0.N).val - 1) (Nat.lt_of_le_of_lt (Nat.sub_le _ _) (⟨n, h⟩ : Fin cfg0.N).isLt)).2.2.2.2.2.2.2.2.2.2)]
    rw [Bridge.accANarrow_blk (iblk m c 0 (⟨n, h⟩ : Fin cfg0.N)) (iblk m c 1 (⟨n, h⟩ : Fin cfg0.N)) (iblk m c 2 (⟨n, h⟩ : Fin cfg0.N)) (iblk m c 5 (⟨n, h⟩ : Fin cfg0.N)) (iblk m c 6 (⟨n, h⟩ : Fin cfg0.N)) (iblk m c 7 (⟨n, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow (⟨n, h⟩ : Fin cfg0.N)) (blk0_row m c (⟨n, h⟩ : Fin cfg0.N)) (blk1_row m c (⟨n, h⟩ : Fin cfg0.N)) (blk2_mat m c (⟨n, h⟩ : Fin cfg0.N)) (blk5_mat m c (⟨n, h⟩ : Fin cfg0.N)) (blk6_mat m c (⟨n, h⟩ : Fin cfg0.N)) (blk7_mat m c (⟨n, h⟩ : Fin cfg0.N)) acc a o]
    unfold addend2
    rw [dif_pos h]
  · rw [dif_neg h1]
    rw [sout_B_2 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) ((outsAt0 m c ((⟨n, h⟩ : Fin cfg0.N).val - 1) (Nat.lt_of_le_of_lt (Nat.sub_le _ _) (⟨n, h⟩ : Fin cfg0.N).isLt)).2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.1) acc ((outsAt0 m c ((⟨n, h⟩ : Fin cfg0.N).val - 1) (Nat.lt_of_le_of_lt (Nat.sub_le _ _) (⟨n, h⟩ : Fin cfg0.N).isLt)).2.2.2.2.2.2.2.2.2.2)]
    rw [Bridge.accANarrow_blk (iblk m c 0 (⟨n, h⟩ : Fin cfg0.N)) (iblk m c 1 (⟨n, h⟩ : Fin cfg0.N)) (iblk m c 2 (⟨n, h⟩ : Fin cfg0.N)) (iblk m c 5 (⟨n, h⟩ : Fin cfg0.N)) (iblk m c 6 (⟨n, h⟩ : Fin cfg0.N)) (iblk m c 7 (⟨n, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow (⟨n, h⟩ : Fin cfg0.N)) (blk0_row m c (⟨n, h⟩ : Fin cfg0.N)) (blk1_row m c (⟨n, h⟩ : Fin cfg0.N)) (blk2_mat m c (⟨n, h⟩ : Fin cfg0.N)) (blk5_mat m c (⟨n, h⟩ : Fin cfg0.N)) (blk6_mat m c (⟨n, h⟩ : Fin cfg0.N)) (blk7_mat m c (⟨n, h⟩ : Fin cfg0.N)) acc a o]
    unfold addend2
    rw [dif_pos h]

/-- The accumulator after point `n`: zero plus the addends of points `0 … n`. -/
theorem scratch2_eq (c : Dev nD) (n : ℕ) (hn : n < cfg0.N) (i : S24x10.Idx) :
    (outsAt0 m c n hn).2.2.2.2.2.2.2.2.2.1 i = (0 : EReal) + ∑ s ∈ Finset.range (n + 1), addend2 m c (0 + s) i := by
  have hN : n < 32 := lt_of_lt_of_eq hn N_0
  rw [soutsAt0_2_sweep m c n hn]
  exact Pipeline.accAt_add_apply (ι := S24x10.Idx) (β := EReal)
    (fun n h => scAt0_2 m c n h (VS0_2.read (Elt Ideal) VS0_2.junk)) (scAt0_2 m c) (fun _ => 0) (addend2 m c) 0 31
    (fun h i => first2 m c h i) (fun n h acc i hb _ => step2 m c n h acc i hb) n (by omega) _ i

/-- At the last point the result buffer receives the accumulator as that point leaves it. -/
theorem out14_eq_scratch (c : Dev nD) (t : Fin cfg0.N) (h1 : t.val % 32 = 31) :
    (outsAt0 m c t.val t.isLt).2.2.2.2.2.1 = (outsAt0 m c t.val t.isLt).2.2.2.2.2.2.2.2.2.1 := by
  have h0 : ¬t.val % 32 = 0 := by omega
  rw [outsAt0_C m c t h0 h1]
  dsimp only
  rw [out_C_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2),
    sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2)]

/-- What the one write-back writes is the sum over the whole batch. -/
theorem flushed14_eq (c : Dev nD) (t : Fin cfg0.N) (hf : (cfg0.win 14).flush t = true) :
    (dats m 0 c).flushed 14 t = ((cfg0.win 14).blk t).view.read (Elt Ideal) (corrANarrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) := by
  have h1 : t.val % 32 = 31 := (flush0_14 t).mp hf
  have hN : t.val < 32 := lt_of_lt_of_eq t.isLt N_0
  have ht : t.val = 31 := by omega
  funext y
  obtain ⟨a, o, rfl⟩ : ∃ (a : Fin 24) (o : Fin 10), y = ix2 a o := ⟨y 0, y 1, eq_ix2 y⟩
  rw [read14, flushed14]
  show (outsAt0 m c t.val t.isLt).2.2.2.2.2.1 (ix2 a o) = _
  rw [out14_eq_scratch m c t h1, scratch2_eq, ht]
  refine (Cert.SumBlocks.zero_add_blocks_eq_batch
    (fun b => firstA (m ((c : Thread nD τ).loc main_arg0)) (m ((c : Thread nD τ).loc main_arg2)) b a * narrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) b o) (fun n => addend2 m c n (ix2 a o)) (fun n h => ?_)).trans rfl
  have h' : n < cfg0.N := lt_of_lt_of_eq h N_0.symm
  unfold addend2
  rw [dif_pos h']
  rfl

/-- An index of the result array is in the one block iff each coordinate is in range. -/
theorem mem_blk14 (t : Fin cfg0.N) (i : S24x10.Idx) :
    i ∈ ((cfg0.win 14).blk t).view.set ↔ ∀ a : Fin 2, win0_14.index t a * S24x10.size a ≤ (i a).val ∧ (i a).val < win0_14.index t a * S24x10.size a + S24x10.size a := by
  show i ∈ ((View.whole main_v0_5).slice (win0_14.rect t)).set ↔ _
  rw [View.set_slice_whole, Rect.mem_set_unit]
  exact Iff.rfl

/-- The last point's block covers the whole result array. -/
theorem cover14 (i : S24x10.Idx) :
    ∃ t : Fin cfg0.N, (cfg0.win 14).flush t = true ∧ i ∈ ((cfg0.win 14).blk t).view.set := by
  have hi0 : (i 0).val < 24 := (i 0).isLt
  have hi1 : (i 1).val < 10 := (i 1).isLt
  obtain ⟨t, ht⟩ : ∃ t : Fin cfg0.N, t.val = 31 := ⟨⟨31, lt_of_lt_of_eq (by decide) N_0.symm⟩, rfl⟩
  refine ⟨t, (flush0_14 t).mpr (by rw [ht]), ?_⟩
  rw [mem_blk14]
  obtain ⟨e0, e1⟩ := (idx_const t).2.2.2.2.2.2.2.2.2.1
  intro a
  match a with
  | ⟨0, _⟩ => show win0_14.index t (0 : Fin 2) * 24 ≤ (i 0).val ∧ (i 0).val < win0_14.index t (0 : Fin 2) * 24 + 24; rw [e0]; omega
  | ⟨1, _⟩ => show win0_14.index t (1 : Fin 2) * 10 ≤ (i 1).val ∧ (i 1).val < win0_14.index t (1 : Fin 2) * 10 + 10; rw [e1]; omega

/-- So the result array ends holding the sum over the batch. -/
theorem final14 (c : Dev nD) : (dats m 0 c).arrAt 14 cfg0.N = (corrANarrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) :=
  (dats m 0 c).arrAt_eq_of_cover 14 (corrANarrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (fun t hf => flushed14_eq m c t hf) cover14

/-! ## Accumulator 3 and plasticity result 3 -/

/-- Point `n`'s addend at `(a, o)`: the sum over the point's batch rows of the two layers' product (zero past the grid). -/
def addend3 (c : Dev nD) (n : ℕ) (i : S24x10.Idx) : EReal :=
  if h : n < cfg0.N then ∑ r : Fin 8192, firstB (m ((c : Thread nD τ).loc main_arg1)) (m ((c : Thread nD τ).loc main_arg5)) (batchRow (⟨n, h⟩ : Fin cfg0.N) r) (i 0) * narrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow (⟨n, h⟩ : Fin cfg0.N) r) (i 1) else 0

/-- The first point leaves zero plus its addend. -/
theorem first3 (c : Dev nD) (h : 0 < cfg0.N) (i : S24x10.Idx) :
    scAt0_3 m c 0 h (VS0_3.read (Elt Ideal) VS0_3.junk) i = (0 : EReal) + addend3 m c 0 i := by
  obtain ⟨a, o, rfl⟩ : ∃ (a : Fin 24) (o : Fin 10), i = ix2 a o := ⟨i 0, i 1, eq_ix2 i⟩
  have hz0 : 0 % 32 = 0 := Nat.zero_mod 32
  have hn31 : ¬0 % 32 = 31 := by decide
  unfold scAt0_3
  rw [dif_pos hz0, dif_neg hn31]
  rw [sout_A_3 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) scM0_0 (Memref.isWhole_whole _) scM0_1 (Memref.isWhole_whole _) scM0_2 (Memref.isWhole_whole _) scM0_3 (Memref.isWhole_whole _) ((hcond0_0 (⟨0, h⟩ : Fin cfg0.N)).mpr hz0) (fun hh => hn31 ((hcond0_1 (⟨0, h⟩ : Fin cfg0.N)).mp hh)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N))]
  rw [Bridge.accBNarrow_blk (iblk m c 0 (⟨0, h⟩ : Fin cfg0.N)) (iblk m c 1 (⟨0, h⟩ : Fin cfg0.N)) (iblk m c 2 (⟨0, h⟩ : Fin cfg0.N)) (iblk m c 5 (⟨0, h⟩ : Fin cfg0.N)) (iblk m c 6 (⟨0, h⟩ : Fin cfg0.N)) (iblk m c 7 (⟨0, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow (⟨0, h⟩ : Fin cfg0.N)) (blk0_row m c (⟨0, h⟩ : Fin cfg0.N)) (blk1_row m c (⟨0, h⟩ : Fin cfg0.N)) (blk2_mat m c (⟨0, h⟩ : Fin cfg0.N)) (blk5_mat m c (⟨0, h⟩ : Fin cfg0.N)) (blk6_mat m c (⟨0, h⟩ : Fin cfg0.N)) (blk7_mat m c (⟨0, h⟩ : Fin cfg0.N)) (k0_pay7 (F := Ideal)) a o, pay7_apply]
  unfold addend3
  rw [dif_pos h]

/-- Every later point adds its addend to what the point before left. -/
theorem step3 (c : Dev nD) (n : ℕ) (h : n < cfg0.N) (acc : Vec Ideal S24x10 .f32) (i : S24x10.Idx) (hpos : 0 < n) :
    scAt0_3 m c n h acc i = acc i + addend3 m c n i := by
  have hN : n < 32 := lt_of_lt_of_eq h N_0
  obtain ⟨a, o, rfl⟩ : ∃ (a : Fin 24) (o : Fin 10), i = ix2 a o := ⟨i 0, i 1, eq_ix2 i⟩
  have h0 : ¬n % 32 = 0 := by omega
  unfold scAt0_3
  rw [dif_neg h0]
  by_cases h1 : n % 32 = 31
  · rw [dif_pos h1]
    rw [sout_C_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) ((outsAt0 m c ((⟨n, h⟩ : Fin cfg0.N).val - 1) (Nat.lt_of_le_of_lt (Nat.sub_le _ _) (⟨n, h⟩ : Fin cfg0.N).isLt)).2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.2.1) acc]
    rw [Bridge.accBNarrow_blk (iblk m c 0 (⟨n, h⟩ : Fin cfg0.N)) (iblk m c 1 (⟨n, h⟩ : Fin cfg0.N)) (iblk m c 2 (⟨n, h⟩ : Fin cfg0.N)) (iblk m c 5 (⟨n, h⟩ : Fin cfg0.N)) (iblk m c 6 (⟨n, h⟩ : Fin cfg0.N)) (iblk m c 7 (⟨n, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow (⟨n, h⟩ : Fin cfg0.N)) (blk0_row m c (⟨n, h⟩ : Fin cfg0.N)) (blk1_row m c (⟨n, h⟩ : Fin cfg0.N)) (blk2_mat m c (⟨n, h⟩ : Fin cfg0.N)) (blk5_mat m c (⟨n, h⟩ : Fin cfg0.N)) (blk6_mat m c (⟨n, h⟩ : Fin cfg0.N)) (blk7_mat m c (⟨n, h⟩ : Fin cfg0.N)) acc a o]
    unfold addend3
    rw [dif_pos h]
  · rw [dif_neg h1]
    rw [sout_B_3 (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) (ms0_12 (⟨n, h⟩ : Fin cfg0.N)) (hs0_12 (⟨n, h⟩ : Fin cfg0.N)) (ms0_13 (⟨n, h⟩ : Fin cfg0.N)) (hs0_13 (⟨n, h⟩ : Fin cfg0.N)) (ms0_14 (⟨n, h⟩ : Fin cfg0.N)) (hs0_14 (⟨n, h⟩ : Fin cfg0.N)) (ms0_15 (⟨n, h⟩ : Fin cfg0.N)) (hs0_15 (⟨n, h⟩ : Fin cfg0.N)) scM0_0 (Memref.isWhole_whole _) scM0_1 (Memref.isWhole_whole _) scM0_2 (Memref.isWhole_whole _) scM0_3 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) ((outsAt0 m c ((⟨n, h⟩ : Fin cfg0.N).val - 1) (Nat.lt_of_le_of_lt (Nat.sub_le _ _) (⟨n, h⟩ : Fin cfg0.N).isLt)).2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.1) ((outsAt0 m c ((⟨n, h⟩ : Fin cfg0.N).val - 1) (Nat.lt_of_le_of_lt (Nat.sub_le _ _) (⟨n, h⟩ : Fin cfg0.N).isLt)).2.2.2.2.2.2.2.2.2.1) acc]
    rw [Bridge.accBNarrow_blk (iblk m c 0 (⟨n, h⟩ : Fin cfg0.N)) (iblk m c 1 (⟨n, h⟩ : Fin cfg0.N)) (iblk m c 2 (⟨n, h⟩ : Fin cfg0.N)) (iblk m c 5 (⟨n, h⟩ : Fin cfg0.N)) (iblk m c 6 (⟨n, h⟩ : Fin cfg0.N)) (iblk m c 7 (⟨n, h⟩ : Fin cfg0.N)) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (batchRow (⟨n, h⟩ : Fin cfg0.N)) (blk0_row m c (⟨n, h⟩ : Fin cfg0.N)) (blk1_row m c (⟨n, h⟩ : Fin cfg0.N)) (blk2_mat m c (⟨n, h⟩ : Fin cfg0.N)) (blk5_mat m c (⟨n, h⟩ : Fin cfg0.N)) (blk6_mat m c (⟨n, h⟩ : Fin cfg0.N)) (blk7_mat m c (⟨n, h⟩ : Fin cfg0.N)) acc a o]
    unfold addend3
    rw [dif_pos h]

/-- The accumulator after point `n`: zero plus the addends of points `0 … n`. -/
theorem scratch3_eq (c : Dev nD) (n : ℕ) (hn : n < cfg0.N) (i : S24x10.Idx) :
    (outsAt0 m c n hn).2.2.2.2.2.2.2.2.2.2 i = (0 : EReal) + ∑ s ∈ Finset.range (n + 1), addend3 m c (0 + s) i := by
  have hN : n < 32 := lt_of_lt_of_eq hn N_0
  rw [soutsAt0_3_sweep m c n hn]
  exact Pipeline.accAt_add_apply (ι := S24x10.Idx) (β := EReal)
    (fun n h => scAt0_3 m c n h (VS0_3.read (Elt Ideal) VS0_3.junk)) (scAt0_3 m c) (fun _ => 0) (addend3 m c) 0 31
    (fun h i => first3 m c h i) (fun n h acc i hb _ => step3 m c n h acc i hb) n (by omega) _ i

/-- At the last point the result buffer receives the accumulator as that point leaves it. -/
theorem out15_eq_scratch (c : Dev nD) (t : Fin cfg0.N) (h1 : t.val % 32 = 31) :
    (outsAt0 m c t.val t.isLt).2.2.2.2.2.2.1 = (outsAt0 m c t.val t.isLt).2.2.2.2.2.2.2.2.2.2 := by
  have h0 : ¬t.val % 32 = 0 := by omega
  rw [outsAt0_C m c t h0 h1]
  dsimp only
  rw [out_C_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2),
    sout_C_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2)]

/-- What the one write-back writes is the sum over the whole batch. -/
theorem flushed15_eq (c : Dev nD) (t : Fin cfg0.N) (hf : (cfg0.win 15).flush t = true) :
    (dats m 0 c).flushed 15 t = ((cfg0.win 15).blk t).view.read (Elt Ideal) (corrBNarrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) := by
  have h1 : t.val % 32 = 31 := (flush0_15 t).mp hf
  have hN : t.val < 32 := lt_of_lt_of_eq t.isLt N_0
  have ht : t.val = 31 := by omega
  funext y
  obtain ⟨a, o, rfl⟩ : ∃ (a : Fin 24) (o : Fin 10), y = ix2 a o := ⟨y 0, y 1, eq_ix2 y⟩
  rw [read15, flushed15]
  show (outsAt0 m c t.val t.isLt).2.2.2.2.2.2.1 (ix2 a o) = _
  rw [out15_eq_scratch m c t h1, scratch3_eq, ht]
  refine (Cert.SumBlocks.zero_add_blocks_eq_batch
    (fun b => firstB (m ((c : Thread nD τ).loc main_arg1)) (m ((c : Thread nD τ).loc main_arg5)) b a * narrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) b o) (fun n => addend3 m c n (ix2 a o)) (fun n h => ?_)).trans rfl
  have h' : n < cfg0.N := lt_of_lt_of_eq h N_0.symm
  unfold addend3
  rw [dif_pos h']
  rfl

/-- An index of the result array is in the one block iff each coordinate is in range. -/
theorem mem_blk15 (t : Fin cfg0.N) (i : S24x10.Idx) :
    i ∈ ((cfg0.win 15).blk t).view.set ↔ ∀ a : Fin 2, win0_15.index t a * S24x10.size a ≤ (i a).val ∧ (i a).val < win0_15.index t a * S24x10.size a + S24x10.size a := by
  show i ∈ ((View.whole main_v0_6).slice (win0_15.rect t)).set ↔ _
  rw [View.set_slice_whole, Rect.mem_set_unit]
  exact Iff.rfl

/-- The last point's block covers the whole result array. -/
theorem cover15 (i : S24x10.Idx) :
    ∃ t : Fin cfg0.N, (cfg0.win 15).flush t = true ∧ i ∈ ((cfg0.win 15).blk t).view.set := by
  have hi0 : (i 0).val < 24 := (i 0).isLt
  have hi1 : (i 1).val < 10 := (i 1).isLt
  obtain ⟨t, ht⟩ : ∃ t : Fin cfg0.N, t.val = 31 := ⟨⟨31, lt_of_lt_of_eq (by decide) N_0.symm⟩, rfl⟩
  refine ⟨t, (flush0_15 t).mpr (by rw [ht]), ?_⟩
  rw [mem_blk15]
  obtain ⟨e0, e1⟩ := (idx_const t).2.2.2.2.2.2.2.2.2.2
  intro a
  match a with
  | ⟨0, _⟩ => show win0_15.index t (0 : Fin 2) * 24 ≤ (i 0).val ∧ (i 0).val < win0_15.index t (0 : Fin 2) * 24 + 24; rw [e0]; omega
  | ⟨1, _⟩ => show win0_15.index t (1 : Fin 2) * 10 ≤ (i 1).val ∧ (i 1).val < win0_15.index t (1 : Fin 2) * 10 + 10; rw [e1]; omega

/-- So the result array ends holding the sum over the batch. -/
theorem final15 (c : Dev nD) : (dats m 0 c).arrAt 15 cfg0.N = (corrBNarrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) :=
  (dats m 0 c).arrAt_eq_of_cover 15 (corrBNarrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (fun t hf => flushed15_eq m c t hf) cover15

end Cert.KernelIdeal.Accum

end
-- ==== Proof.KernelRun.lean ====
/-
  The idealized kernel's run, read: its seven result arrays are the network's results for the arguments it was given.
-/
import proofs.«105392_j46213848105974_2_alg».proof.Proof.Streams
import proofs.«105392_j46213848105974_2_alg».proof.Proof.Accum

noncomputable section

namespace Cert.KernelIdeal.Result

open Cert.KernelIdeal Cert.KernelIdeal.Gen Cert.KernelIdeal.GenP Cert.KernelIdeal.ValueP
open Idealize.ShloMosaic Idealize.ShloMosaic.TcCoe Idealize.SL.Sem Cert.Spec

variable (m : (ℓ : Loc nD τ sig) → Buf (Elt Ideal) ℓ) (ρ : Dev nD → PrngReg)

/-- Every weakly fair execution of the idealized kernel's program terminates with the four plasticity matrices at the
    sums over the batch, the three layer outputs at the layers of the whole batch, and the arguments unchanged. -/
theorem run : θ_run defs (onTc (τ := τ) (main (F := Ideal))) ⟨m, fun _ => 0, ρ⟩ fun r => ∀ c : Dev nD,
      r.2.mem ((c : Thread nD τ).loc main_v0_3) = (corrAWide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)))
      ∧ r.2.mem ((c : Thread nD τ).loc main_v0_4) = (corrBWide (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)))
      ∧ r.2.mem ((c : Thread nD τ).loc main_v0_5) = (corrANarrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)))
      ∧ r.2.mem ((c : Thread nD τ).loc main_v0_6) = (corrBNarrow (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)))
      ∧ r.2.mem ((c : Thread nD τ).loc main_v0_0) = (wideArr (m ((c : Thread nD τ).loc main_arg0)) (m ((c : Thread nD τ).loc main_arg1)) (m ((c : Thread nD τ).loc main_arg2)) (m ((c : Thread nD τ).loc main_arg5)) (m ((c : Thread nD τ).loc main_arg3)) (m ((c : Thread nD τ).loc main_arg4)))
      ∧ r.2.mem ((c : Thread nD τ).loc main_v0_1) = (narrowArr (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)))
      ∧ r.2.mem ((c : Thread nD τ).loc main_v0_2) = (lastArr (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
    ⟨(h c).2.2.2.1.trans (Cert.KernelIdeal.Accum.final12 m c),
      (h c).2.2.2.2.1.trans (Cert.KernelIdeal.Accum.final13 m c),
      (h c).2.2.2.2.2.1.trans (Cert.KernelIdeal.Accum.final14 m c),
      (h c).2.2.2.2.2.2.1.trans (Cert.KernelIdeal.Accum.final15 m c),
      (h c).1.trans (Cert.KernelIdeal.Streams.final9 m c),
      (h c).2.1.trans (Cert.KernelIdeal.Streams.final10 m c),
      (h c).2.2.1.trans (Cert.KernelIdeal.Streams.final11 m c),
      (h c).2.2.2.2.2.2.2⟩)
    (run_blocks m ρ)

end Cert.KernelIdeal.Result

end
-- ==== Proof.Reference.lean ====
/-
  The reference program's seven results are the network's, read index by index.

  Each of its stages is one operation of the whole batch: a product with a weight matrix is, at row `b`, the drive by
  that row; a comparison with the broadcast one half followed by the conversion of the bit is the firing rule; the four
  products contracted over the batch are sums over the batch rows.
-/
import proofs.«105392_j46213848105974_2_alg».proof.Proof.Gen.ReferenceIdeal.Read
import proofs.«105392_j46213848105974_2_alg».proof.Proof.Ops

noncomputable section

namespace Cert.ReferenceIdeal.RefValue

open Cert.ReferenceIdeal Cert.ReferenceIdeal.Gen Cert.ReferenceIdeal.Read Idealize.ShloMosaic Idealize.ShloMosaic.ValueIdx Cert.Spec Cert.Ops

variable (X1 X2 : (⟨S262144x24, .f32⟩ : BufTy).Contents (Elt Ideal)) (W0 W3 : (⟨S24x24, .f32⟩ : BufTy).Contents (Elt Ideal))
  (W1 W2 : (⟨S24x50, .f32⟩ : BufTy).Contents (Elt Ideal)) (W4 W5 : (⟨S24x10, .f32⟩ : BufTy).Contents (Elt Ideal))
  (W6 : (⟨S10x10, .f32⟩ : BufTy).Contents (Elt Ideal))

/-- The first layer of the first input at batch row `b`. -/
theorem v3_row (b : Fin 262144) : row (val_main_v3 (F := Ideal) X1 W0) b = firstA X1 W0 b := by
  funext j
  show val_main_v3 (F := Ideal) X1 W0 (ix2 b j) = layer (mat W0) (row X1 b) j
  unfold val_main_v3 val_main_v2 val_main_v1 val_main_cst val_main_v0
  exact (host_fire _ _ _ (ix2 b j)).trans (congrArg fire (dotGeneral_drive _ rfl X1 W0 b j))

/-- The first layer of the second input at batch row `b`. -/
theorem v7_row (b : Fin 262144) : row (val_main_v7 (F := Ideal) X2 W3) b = firstB X2 W3 b := by
  funext j
  show val_main_v7 (F := Ideal) X2 W3 (ix2 b j) = layer (mat W3) (row X2 b) j
  unfold val_main_v7 val_main_v6 val_main_v5 val_main_cst_0 val_main_v4
  exact (host_fire _ _ _ (ix2 b j)).trans (congrArg fire (dotGeneral_drive _ rfl X2 W3 b j))

/-- The wide middle layer at `(b, j)`. -/
theorem v13_apply (b : Fin 262144) (j : Fin 50) :
    val_main_v13 (F := Ideal) X1 X2 W0 W1 W2 W3 (ix2 b j) = wide X1 X2 W0 W3 W1 W2 b j := by
  unfold val_main_v13 val_main_v12 val_main_v11 val_main_cst_1 val_main_v10 val_main_v8 val_main_v9
  refine (host_fire _ _ _ (ix2 b j)).trans (congrArg fire ?_)
  refine (congrArg₂ (· + ·) (dotGeneral_drive _ rfl (val_main_v3 (F := Ideal) X1 W0) W1 b j)
    (dotGeneral_drive _ rfl (val_main_v7 (F := Ideal) X2 W3) W2 b j)).trans ?_
  rw [v3_row, v7_row]

theorem v13_eq : val_main_v13 (F := Ideal) X1 X2 W0 W1 W2 W3 = wideArr X1 X2 W0 W3 W1 W2 := by
  funext i
  obtain ⟨b, j, rfl⟩ : ∃ (b : Fin 262144) (j : Fin 50), i = ix2 b j := ⟨i 0, i 1, eq_ix2 i⟩
  exact v13_apply X1 X2 W0 W3 W1 W2 b j

/-- The narrow middle layer at `(b, j)`. -/
theorem v21_apply (b : Fin 262144) (j : Fin 10) :
    val_main_v21 (F := Ideal) X1 X2 W0 W3 W4 W5 (ix2 b j) = narrow X1 X2 W0 W3 W4 W5 b j := by
  unfold val_main_v21 val_main_v20 val_main_v19 val_main_cst_2 val_main_v18 val_main_v16 val_main_v17
  refine (host_fire _ _ _ (ix2 b j)).trans (congrArg fire ?_)
  refine (congrArg₂ (· + ·) (dotGeneral_drive _ rfl (val_main_v3 (F := Ideal) X1 W0) W4 b j)
    (dotGeneral_drive _ rfl (val_main_v7 (F := Ideal) X2 W3) W5 b j)).trans ?_
  rw [v3_row, v7_row]

theorem v21_row (b : Fin 262144) : row (val_main_v21 (F := Ideal) X1 X2 W0 W3 W4 W5) b = narrow X1 X2 W0 W3 W4 W5 b :=
  funext fun j => v21_apply X1 X2 W0 W3 W4 W5 b j

theorem v21_eq : val_main_v21 (F := Ideal) X1 X2 W0 W3 W4 W5 = narrowArr X1 X2 W0 W3 W4 W5 := by
  funext i
  obtain ⟨b, j, rfl⟩ : ∃ (b : Fin 262144) (j : Fin 10), i = ix2 b j := ⟨i 0, i 1, eq_ix2 i⟩
  exact v21_apply X1 X2 W0 W3 W4 W5 b j

/-- The last layer. -/
theorem v27_eq : val_main_v27 (F := Ideal) X1 X2 W0 W3 W4 W5 W6 = lastArr X1 X2 W0 W3 W4 W5 W6 := by
  funext i
  obtain ⟨b, j, rfl⟩ : ∃ (b : Fin 262144) (j : Fin 10), i = ix2 b j := ⟨i 0, i 1, eq_ix2 i⟩
  show val_main_v27 (F := Ideal) X1 X2 W0 W3 W4 W5 W6 (ix2 b j) = layer (mat W6) (narrow X1 X2 W0 W3 W4 W5 b) j
  unfold val_main_v27 val_main_v26 val_main_v25 val_main_cst_3 val_main_v24
  refine (host_fire _ _ _ (ix2 b j)).trans (congrArg fire ?_)
  refine (dotGeneral_drive _ rfl (val_main_v21 (F := Ideal) X1 X2 W0 W3 W4 W5) W6 b j).trans ?_
  rw [v21_row]

/-- The four products contracted over the batch. -/
theorem v14_eq : val_main_v14 (F := Ideal) X1 X2 W0 W1 W2 W3 = corrAWide X1 X2 W0 W3 W1 W2 := by
  funext i
  obtain ⟨a, o, rfl⟩ : ∃ (a : Fin 24) (o : Fin 50), i = ix2 a o := ⟨i 0, i 1, eq_ix2 i⟩
  unfold val_main_v14
  refine (Cert.Lib.RowContraction.dotGeneral_rows_apply _ none (val_main_v3 (F := Ideal) X1 W0)
    (val_main_v13 (F := Ideal) X1 X2 W0 W1 W2 W3) a o).trans ?_
  refine Finset.sum_congr rfl fun b _ => ?_
  exact congrArg₂ (· * ·) (congrFun (v3_row X1 W0 b) a) (v13_apply X1 X2 W0 W3 W1 W2 b o)

theorem v15_eq : val_main_v15 (F := Ideal) X1 X2 W0 W1 W2 W3 = corrBWide X1 X2 W0 W3 W1 W2 := by
  funext i
  obtain ⟨a, o, rfl⟩ : ∃ (a : Fin 24) (o : Fin 50), i = ix2 a o := ⟨i 0, i 1, eq_ix2 i⟩
  unfold val_main_v15
  refine (Cert.Lib.RowContraction.dotGeneral_rows_apply _ none (val_main_v7 (F := Ideal) X2 W3)
    (val_main_v13 (F := Ideal) X1 X2 W0 W1 W2 W3) a o).trans ?_
  refine Finset.sum_congr rfl fun b _ => ?_
  exact congrArg₂ (· * ·) (congrFun (v7_row X2 W3 b) a) (v13_apply X1 X2 W0 W3 W1 W2 b o)

theorem v22_eq : val_main_v22 (F := Ideal) X1 X2 W0 W3 W4 W5 = corrANarrow X1 X2 W0 W3 W4 W5 := by
  funext i
  obtain ⟨a, o, rfl⟩ : ∃ (a : Fin 24) (o : Fin 10), i = ix2 a o := ⟨i 0, i 1, eq_ix2 i⟩
  unfold val_main_v22
  refine (Cert.Lib.RowContraction.dotGeneral_rows_apply _ none (val_main_v3 (F := Ideal) X1 W0)
    (val_main_v21 (F := Ideal) X1 X2 W0 W3 W4 W5) a o).trans ?_
  refine Finset.sum_congr rfl fun b _ => ?_
  exact congrArg₂ (· * ·) (congrFun (v3_row X1 W0 b) a) (v21_apply X1 X2 W0 W3 W4 W5 b o)

theorem v23_eq : val_main_v23 (F := Ideal) X1 X2 W0 W3 W4 W5 = corrBNarrow X1 X2 W0 W3 W4 W5 := by
  funext i
  obtain ⟨a, o, rfl⟩ : ∃ (a : Fin 24) (o : Fin 10), i = ix2 a o := ⟨i 0, i 1, eq_ix2 i⟩
  unfold val_main_v23
  refine (Cert.Lib.RowContraction.dotGeneral_rows_apply _ none (val_main_v7 (F := Ideal) X2 W3)
    (val_main_v21 (F := Ideal) X1 X2 W0 W3 W4 W5) a o).trans ?_
  refine Finset.sum_congr rfl fun b _ => ?_
  exact congrArg₂ (· * ·) (congrFun (v7_row X2 W3 b) a) (v21_apply X1 X2 W0 W3 W4 W5 b o)

end Cert.ReferenceIdeal.RefValue

end
-- ==== Proof.ReferenceRun.lean ====
/-
  The idealized reference's run, read: its seven results are the network's results for the arguments it was given.
-/
import proofs.«105392_j46213848105974_2_alg».proof.Proof.Reference

noncomputable section

namespace Cert.ReferenceIdeal.Result

open Cert.ReferenceIdeal Cert.ReferenceIdeal.Gen Cert.ReferenceIdeal.Read Cert.ReferenceIdeal.RefValue
open Idealize.ShloMosaic Idealize.ShloMosaic.TcCoe Idealize.SL.Sem Cert.Spec

variable (m : (ℓ : Loc nD τ sig) → Buf (Elt Ideal) ℓ) (ρ : Dev nD → PrngReg)

/-- Every weakly fair execution of the idealized reference terminates with its seven results at the network's results
    and the arguments unchanged. -/
theorem run : θ_run defs (onTc (τ := τ) (main (F := Ideal))) ⟨m, fun _ => 0, ρ⟩ fun r => ∀ c : Dev nD,
      r.2.mem ((c.tc : Thread nD τ).loc main_v14) = (corrAWide (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg3)) (m ((c.tc : Thread nD τ).loc main_arg4)))
      ∧ r.2.mem ((c.tc : Thread nD τ).loc main_v15) = (corrBWide (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg3)) (m ((c.tc : Thread nD τ).loc main_arg4)))
      ∧ r.2.mem ((c.tc : Thread nD τ).loc main_v22) = (corrANarrow (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)))
      ∧ r.2.mem ((c.tc : Thread nD τ).loc main_v23) = (corrBNarrow (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)))
      ∧ r.2.mem ((c.tc : Thread nD τ).loc main_v13) = (wideArr (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg3)) (m ((c.tc : Thread nD τ).loc main_arg4)))
      ∧ r.2.mem ((c.tc : Thread nD τ).loc main_v21) = (narrowArr (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)))
      ∧ r.2.mem ((c.tc : Thread nD τ).loc main_v27) = (lastArr (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c).1.trans ((val_main_v14_eq _ _ _ _ _ _).trans (v14_eq _ _ _ _ _ _)),
      (h c).2.1.trans ((val_main_v15_eq _ _ _ _ _ _).trans (v15_eq _ _ _ _ _ _)),
      (h c).2.2.1.trans ((val_main_v22_eq _ _ _ _ _ _).trans (v22_eq _ _ _ _ _ _)),
      (h c).2.2.2.1.trans ((val_main_v23_eq _ _ _ _ _ _).trans (v23_eq _ _ _ _ _ _)),
      (h c).2.2.2.2.1.trans ((val_main_v13_eq _ _ _ _ _ _).trans (v13_eq _ _ _ _ _ _)),
      (h c).2.2.2.2.2.1.trans ((val_main_v21_eq _ _ _ _ _ _).trans (v21_eq _ _ _ _ _ _)),
      (h c).2.2.2.2.2.2.1.trans ((val_main_v27_eq _ _ _ _ _ _ _).trans (v27_eq _ _ _ _ _ _ _)),
      (h c).2.2.2.2.2.2.2⟩)
    (Cert.ReferenceIdeal.Value.run (F := Ideal) m ρ)

end Cert.ReferenceIdeal.Result

end
-- ==== Proof.lean ====
/-
  The certificate's claims, assembled.

  Both idealized programs compute, for every batch row, the same four-layer threshold network and, for the four
  plasticity matrices, the same sums over the batch of products of two layers' outputs: the kernel block by block of
  8192 rows with running accumulators, the reference over the whole batch at once. A sum over the batch regrouped into
  the 32 blocks is the same sum, by commutativity and associativity of addition alone, so no finiteness of the inputs is
  used. The three frames are the programs' runs with the results dropped; the idealization rewrote nothing.
-/
import proofs.«105392_j46213848105974_2_alg».proof.Defs
import proofs.«105392_j46213848105974_2_alg».proof.Proof.Gen.Kernel
import proofs.«105392_j46213848105974_2_alg».proof.Proof.Gen.KernelIdeal
import proofs.«105392_j46213848105974_2_alg».proof.Proof.Gen.ReferenceIdeal
import proofs.«105392_j46213848105974_2_alg».proof.Proof.Gen.Pre_finite_inputs
import proofs.«105392_j46213848105974_2_alg».proof.Proof.FrameK
import proofs.«105392_j46213848105974_2_alg».proof.Proof.KernelRun
import proofs.«105392_j46213848105974_2_alg».proof.Proof.ReferenceRun
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2.2.2.2.2.2)
    (Cert.ReferenceIdeal.Value.run (F := Ideal) m ρ)

theorem preserves : Cert.preserves_Kernel_KernelIdeal := trivial

/-- From memories that agree on the nine arguments both idealized programs end with the network's seven results of
    those arguments. -/
theorem algebraic : Cert.algebraic_KernelIdeal_ReferenceIdeal := by
  intro m ρ m' ρ' _ hagree
  refine ⟨_, _, _, _, _, _, _, Cert.KernelIdeal.Result.run m ρ, ?_⟩
  refine (θ_run Cert.ReferenceIdeal.defs _ _).mono (fun r h c => ?_) (Cert.ReferenceIdeal.Result.run m' ρ')
  obtain ⟨e0, e1, e2, e3, e4, e5, e6, e7, e8⟩ := hagree c
  obtain ⟨r0, r1, r2, r3, r4, r5, r6, rest⟩ := h c
  simp only [e0, e1, e2, e3, e4, e5, e6, e7, e8] at r0 r1 r2 r3 r4 r5 r6
  exact ⟨r0, r1, r2, r3, r4, r5, r6, rest⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
